-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S2048x4096 .f32) (main_arg1 : FVec F S2048x4096 .f32) (main_arg2 : IVec S2048x4096 1) (main_arg3 : FVec F S4096x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S2048x4096 : Shape := ⟨2, ![2048, 4096]⟩
abbrev S4096x4096 : Shape := ⟨2, ![4096, 4096]⟩
abbrev S4x1x1 : Shape := ⟨3, ![4, 1, 1]⟩
abbrev S512x512 : Shape := ⟨2, ![512, 512]⟩
abbrev S4096x512 : Shape := ⟨2, ![4096, 512]⟩
abbrev S512x4096 : Shape := ⟨2, ![512, 4096]⟩
abbrev S1x1x1 : Shape := ⟨3, ![1, 1, 1]⟩
abbrev S512x1 : Shape := ⟨2, ![512, 1]⟩
abbrev S512 : Shape := ⟨1, ![512]⟩
abbrev S1 : Shape := ⟨1, ![1]⟩
abbrev S1x1 : Shape := ⟨2, ![1, 1]⟩
abbrev S_ : Shape := ⟨0, ![]⟩

abbrev nBuf : Space → Nat
  | .hbm => 16
  | .vmem => 15
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .i1⟩
  | .hbm, ⟨3, _⟩ => ⟨S4096x4096, .f32⟩
  | .hbm, ⟨4, _⟩ => ⟨S4096x4096, .bf16⟩
  | .hbm, ⟨5, _⟩ => ⟨S2048x4096, .i32⟩
  | .hbm, ⟨6, _⟩ => ⟨S4x1x1, .f32⟩
  | .hbm, ⟨7, _⟩ => ⟨S4x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S4096x512, .bf16⟩
  | .local _ .vmem, ⟨5, _⟩ => ⟨S4096x512, .bf16⟩
  | .local _ .vmem, ⟨6, _⟩ => ⟨S512x4096, .i32⟩
  | .local _ .vmem, ⟨7, _⟩ => ⟨S512x4096, .i32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S512x4096, .f32⟩
  | .local _ .vmem, ⟨13, _⟩ => ⟨S512x1, .f32⟩
  | .local _ .vmem, ⟨14, _⟩ => ⟨S512x1, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v7 : BitVec 32 := Scalar.muli arg1 c512_i32
  v7
def k0_off1 (i : grid0.Coords) : Fin 2 → Nat :=
  let c0_4 : Index := 0#32
  let arg1 : BitVec 32 := BitVec.ofNat 32 (i 1).val
  let c512_i32 : BitVec 32 := 512#32
  let v7 : BitVec 32 := Scalar.muli arg1 c512_i32
  let v8 : BitVec 32 := v7
  let v9 : Index := Scalar.indexCast v8
  ![0, v9.toNat]
def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_22 : BitVec 32 := 0#32
  let v40 : BitVec 1 := Scalar.cmpi .ne v39 c0_i32_22
  v40

def k0_mult2 : BitVec 32 :=
  let c0_i32_24 : BitVec 32 := 0#32
  let c512_i32_25 : BitVec 32 := 512#32
  let v42 : BitVec 32 := Scalar.muli c0_i32_24 c512_i32_25
  v42
def k0_off2 (c0_i32_24 : BitVec 32) : Fin 2 → Nat :=
  let c0_26 : Index := 0#32
  let c512_i32_25 : BitVec 32 := 512#32
  let v42 : BitVec 32 := Scalar.muli c0_i32_24 c512_i32_25
  let v43 : BitVec 32 := v42
  let v44 : Index := Scalar.indexCast v43
  ![0, v44.toNat]
def k0_mult3 : BitVec 32 :=
  let c1_i32 : BitVec 32 := 1#32
  let c512_i32_30 : BitVec 32 := 512#32
  let v55 : BitVec 32 := Scalar.muli c1_i32 c512_i32_30
  v55
def k0_mult4 : BitVec 32 :=
  let c2_i32 : BitVec 32 := 2#32
  let c512_i32_35 : BitVec 32 := 512#32
  let v68 : BitVec 32 := Scalar.muli c2_i32 c512_i32_35
  v68
def k0_mult5 : BitVec 32 :=
  let c3_i32 : BitVec 32 := 3#32
  let c512_i32_40 : BitVec 32 := 512#32
  let v81 : BitVec 32 := Scalar.muli c3_i32 c512_i32_40
  v81
def k0_mult6 : BitVec 32 :=
  let c4_i32 : BitVec 32 := 4#32
  let c512_i32_45 : BitVec 32 := 512#32
  let v94 : BitVec 32 := Scalar.muli c4_i32 c512_i32_45
  v94
def k0_mult7 : BitVec 32 :=
  let c5_i32 : BitVec 32 := 5#32
  let c512_i32_50 : BitVec 32 := 512#32
  let v107 : BitVec 32 := Scalar.muli c5_i32 c512_i32_50
  v107
def k0_mult8 : BitVec 32 :=
  let c6_i32 : BitVec 32 := 6#32
  let c512_i32_55 : BitVec 32 := 512#32
  let v120 : BitVec 32 := Scalar.muli c6_i32 c512_i32_55
  v120
def k0_mult9 : BitVec 32 :=
  let c7_i32_60 : BitVec 32 := 7#32
  let c512_i32_61 : BitVec 32 := 512#32
  let v133 : BitVec 32 := Scalar.muli c7_i32_60 c512_i32_61
  v133
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  natLt_1_32 : 1 < 32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S512x1_S1 : S512x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S4x1x1_S_d0_1_2 : S4x1x1.ReducesTo [0, 1, 2] S_
  h_S_ : 0 < S_.numel
  dot_S512x512_S4096x512_S512x4096_1_1_0_0_n_n_wf : DotDims.WF S512x512 S4096x512 S512x4096 [1] [1] [0] [0] [] []
  hrank0 : 0 < grid0.rank
  k0_mult1_dvd : ∀ i : grid0.Coords, 512 ∣ (k0_mult1 i).toNat
  k0_off1_inb : ∀ i : grid0.Coords, ∀ a, (k0_off1 i) a + S512x512.size a ≤ S512x4096.size a
  k0_mult2_dvd : ∀ i : grid0.Coords, ∀ (k0_h2 : k0_cond2 i = 1#1), 512 ∣ k0_mult2.toNat
  k0_off2_inb : ∀ i : grid0.Coords, ∀ (k0_h2 : k0_cond2 i = 1#1), ∀ (r : Fin 8), ∀ a, (k0_off2 (BitVec.ofNat 32 r.val)) a + S512x512.size a ≤ S512x4096.size a
  k0_mult3_dvd : ∀ i : grid0.Coords, ∀ (k0_h2 : k0_cond2 i = 1#1), 512 ∣ k0_mult3.toNat
  k0_mult4_dvd : ∀ i : grid0.Coords, ∀ (k0_h2 : k0_cond2 i = 1#1), 512 ∣ k0_mult4.toNat
  k0_mult5_dvd : ∀ i : grid0.Coords, ∀ (k0_h2 : k0_cond2 i = 1#1), 512 ∣ k0_mult5.toNat
  k0_mult6_dvd : ∀ i : grid0.Coords, ∀ (k0_h2 : k0_cond2 i = 1#1), 512 ∣ k0_mult6.toNat
  k0_mult7_dvd : ∀ i : grid0.Coords, ∀ (k0_h2 : k0_cond2 i = 1#1), 512 ∣ k0_mult7.toNat
  k0_mult8_dvd : ∀ i : grid0.Coords, ∀ (k0_h2 : k0_cond2 i = 1#1), 512 ∣ k0_mult8.toNat
  k0_mult9_dvd : ∀ i : grid0.Coords, ∀ (k0_h2 : k0_cond2 i = 1#1), 512 ∣ k0_mult9.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x4096.size a
  hwx0_0 : ∀ i : grid0.Coords, EltTy.bits .f32 = 32 ∨ (Rect.block (s := S2048x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x4096.size a
  hwx0_1 : ∀ i : grid0.Coords, EltTy.bits .f32 = 32 ∨ (Rect.block (s := S2048x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x4096.size a
  hwx0_2 : ∀ i : grid0.Coords, EltTy.bits .bf16 = 32 ∨ (Rect.block (s := S4096x4096) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S2048x4096.size a
  hwx0_3 : ∀ i : grid0.Coords, EltTy.bits .i32 = 32 ∨ (Rect.block (s := S2048x4096) S512x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S4x1x1.size a
  hwx0_4 : ∀ i : grid0.Coords, EltTy.bits .f32 = 32 ∨ (Rect.block (s := S4x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S4x1x1.size a
  hwx0_5 : ∀ i : grid0.Coords, EltTy.bits .f32 = 32 ∨ (Rect.block (s := S4x1x1) S1x1x1.size (cc0_transform_5 i) (hinb0_5 i)).WholeWords (EltTy.packing .f32)

variable [Facts₀]

def dot_S512x512_S4096x512_S512x4096_1_1_0_0_n_n : DotDims S512x512 S4096x512 S512x4096 where
  lhsContracting := [1]
  rhsContracting := [1]
  lhsNonContracting := [0]
  rhsNonContracting := [0]
  lhsBatch := []
  rhsBatch := []
  wf := dot_S512x512_S4096x512_S512x4096_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S2048x4096, .i1⟩
  | .hbm, ⟨3, _⟩ => ⟨S4096x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S_, .f32⟩
  | .hbm, ⟨11, _⟩ => ⟨S2048x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  reducesTo_S2048x4096_S_d0_1 : S2048x4096.ReducesTo [0, 1] S_
  h_S_ : 0 < S_.numel
  dot_S2048x4096_S4096x4096_S2048x4096_1_1_0_0_n_n_wf : DotDims.WF S2048x4096 S4096x4096 S2048x4096 [1] [1] [0] [0] [] []

variable [Facts₀]

def dot_S2048x4096_S4096x4096_S2048x4096_1_1_0_0_n_n : DotDims S2048x4096 S4096x4096 S2048x4096 where
  lhsContracting := [1]
  rhsContracting := [1]
  lhsNonContracting := [0]
  rhsNonContracting := [0]
  lhsBatch := []
  rhsBatch := []
  wf := dot_S2048x4096_S4096x4096_S2048x4096_1_1_0_0_n_n_wf

class Facts : Prop extends Facts₀ where

variable [Facts]
-- ==== Proof.Pieces.lean ====
/-
  What the kernel's body leaves, case by case, as terms over its payloads.

  The body runs in three cases: at a row tile's first column step the three accumulators are zeroed first; at a middle
  step nothing is zeroed; at the last column step the two per-tile results are written as well. In every case the body
  adds to the neighbour accumulator the product of the squared-error block with the neighbour block, to the masked-error
  accumulator the row sums of squared error times the step's mask columns, and to the mask counter the row sums of those
  mask columns. At the last step the first result is computed from the accumulators AS JUST UPDATED (each of eight column
  chunks of the new neighbour accumulator against the same chunk of the mask), the second from the new counter.
-/
import proofs.«156724_j85701777424698_2_alg».proof.Defs
import proofs.«156724_j85701777424698_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load, through any rectangle, of a buffer that one store through its whole shape has just filled reads that
    store's payload through the rectangle. -/
theorem readCov_whole_piece {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩),
    View.canon_unit_zero h]

/-- The step's mask columns: columns `512 k .. 512 k + 511` of the mask block, `k` the column step. -/
def slab (i : grid0.Coords) (x3 : Vec F S512x4096 .i32) : Vec F S512x512 .i32 :=
  View.ld x3 (Rect.unit (s := S512x4096) (k0_off1 i) S512x512.size (k0_off1_inb i))

/-- Column chunk `q` (columns `512 q .. 512 q + 511`) of a [512, 4096] block, as the last step reads it. -/
def chunk {e : EltTy} (i : grid0.Coords) (h : cond0_1 i) (q : Fin 8) (X : Vec F S512x4096 e) : Vec F S512x512 e :=
  View.ld X (Rect.unit (s := S512x4096) (k0_off2 (BitVec.ofNat 32 q.val)) S512x512.size (k0_off2_inb i h q))

/-- The three accumulators after one step, from the blocks and the accumulators before it. -/
def nbr' (x0 x1 : Vec F S512x512 .f32) (x2 : Vec F S4096x512 .bf16) (s0 : Vec F S512x4096 .f32) : Vec F S512x4096 .f32 :=
  k0_pay1 (k0_pay13 x1 x0 x2) s0
def sqm' (i : grid0.Coords) (x0 x1 : Vec F S512x512 .f32) (x3 : Vec F S512x4096 .i32) (s1 : Vec F S512x1 .f32) : Vec F S512x1 .f32 :=
  k0_pay11 x1 x0 (slab i x3) s1
def cnt' (i : grid0.Coords) (x3 : Vec F S512x4096 .i32) (s2 : Vec F S512x1 .f32) : Vec F S512x1 .f32 :=
  k0_pay12 (slab i x3) s2

/-- The first result, from the mask block and the accumulators just updated. -/
def res4 (i : grid0.Coords) (h : cond0_1 i) (x3 : Vec F S512x4096 .i32) (n0 : Vec F S512x4096 .f32) (n1 : Vec F S512x1 .f32) : Vec F S1x1x1 .f32 :=
  k0_pay4
    (k0_pay3
      (k0_pay2 (chunk i h 0 x3) (chunk i h 0 n0) (chunk i h 1 x3) (chunk i h 1 n0) (chunk i h 2 x3) (chunk i h 2 n0))
      (chunk i h 3 x3) (chunk i h 3 n0) (chunk i h 4 x3) (chunk i h 4 n0) (chunk i h 5 x3) (chunk i h 5 n0))
    (chunk i h 6 x3) (chunk i h 6 n0) (chunk i h 7 x3) (chunk i h 7 n0) n1

/-- First step: the neighbour accumulator is zeroed, then takes the step's product. -/
theorem first_nbr (c : Dev nD) (i : grid0.Coords) (a2 : Memref sig .tc .vmem S512x512 .f32) (h2 : a2.IsWhole) (a3 : Memref sig .tc .vmem S512x512 .f32) (h3 : a3.IsWhole) (a4 : Memref sig .tc .vmem S4096x512 .bf16) (h4 : a4.IsWhole) (a5 : Memref sig .tc .vmem S512x4096 .i32) (h5 : a5.IsWhole) (a6 : Memref sig .tc .vmem S1x1x1 .f32) (h6 : a6.IsWhole) (a7 : Memref sig .tc .vmem S1x1x1 .f32) (h7 : a7.IsWhole) (a8 : Memref sig .tc .vmem S512x4096 .f32) (h8 : a8.IsWhole) (a9 : Memref sig .tc .vmem S512x1 .f32) (h9 : a9.IsWhole) (a10 : Memref sig .tc .vmem S512x1 .f32) (h10 : a10.IsWhole) (hc0 : cond0_0 i) (hc1 : ¬cond0_1 i) (x0 x1 : Vec F S512x512 .f32) (x2 : Vec F S4096x512 .bf16) (x3 : Vec F S512x4096 .i32) :
    sout0_A_0 c i a2 h2 a3 h3 a4 h4 a5 h5 a6 h6 a7 h7 a8 h8 a9 h9 a10 h10 hc0 hc1 x0 x1 x2 x3 = nbr' x0 x1 x2 k0_pay6 := by
  unfold sout0_A_0
  rw [View.read_writes_eq_canon _ _ _ (scover0_A_0 c i a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S512x4096) hz2, View.readCov_unit_zero (S := S512x4096) _ hz2]
  simp only [View.readAt_eq_ld, h2.read_unread, h3.read_unread, h4.read_unread, h5.read_unread, h8.read_unread, h9.read_unread, h10.read_unread, View.ld_unit_zero (S := S512x512) hz2, View.ld_unit_zero (S := S4096x512) hz2, View.ld_unit_zero (S := S512x4096) hz2, View.ld_unit_zero (S := S512x1) hz2]
  rfl

/-- First step: the masked-error accumulator is zeroed, then takes the step's row sums. -/
theorem first_sqm (c : Dev nD) (i : grid0.Coords) (a2 : Memref sig .tc .vmem S512x512 .f32) (h2 : a2.IsWhole) (a3 : Memref sig .tc .vmem S512x512 .f32) (h3 : a3.IsWhole) (a4 : Memref sig .tc .vmem S4096x512 .bf16) (h4 : a4.IsWhole) (a5 : Memref sig .tc .vmem S512x4096 .i32) (h5 : a5.IsWhole) (a6 : Memref sig .tc .vmem S1x1x1 .f32) (h6 : a6.IsWhole) (a7 : Memref sig .tc .vmem S1x1x1 .f32) (h7 : a7.IsWhole) (a8 : Memref sig .tc .vmem S512x4096 .f32) (h8 : a8.IsWhole) (a9 : Memref sig .tc .vmem S512x1 .f32) (h9 : a9.IsWhole) (a10 : Memref sig .tc .vmem S512x1 .f32) (h10 : a10.IsWhole) (hc0 : cond0_0 i) (hc1 : ¬cond0_1 i) (x0 x1 : Vec F S512x512 .f32) (x2 : Vec F S4096x512 .bf16) (x3 : Vec F S512x4096 .i32) :
    sout0_A_1 c i a2 h2 a3 h3 a4 h4 a5 h5 a6 h6 a7 h7 a8 h8 a9 h9 a10 h10 hc0 hc1 x0 x1 x2 x3 = sqm' i x0 x1 x3 k0_pay7 := by
  unfold sout0_A_1
  rw [View.read_writes_eq_canon _ _ _ (scover0_A_1 c i a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S512x1) hz2, View.readCov_unit_zero (S := S512x1) _ hz2]
  simp only [View.readAt_eq_ld, h2.read_unread, h3.read_unread, h4.read_unread, h5.read_unread, h8.read_unread, h9.read_unread, h10.read_unread, View.ld_unit_zero (S := S512x512) hz2, View.ld_unit_zero (S := S4096x512) hz2, View.ld_unit_zero (S := S512x4096) hz2, View.ld_unit_zero (S := S512x1) hz2]
  rfl

/-- First step: the mask counter is zeroed, then takes the step's row sums. -/
theorem first_cnt (c : Dev nD) (i : grid0.Coords) (a2 : Memref sig .tc .vmem S512x512 .f32) (h2 : a2.IsWhole) (a3 : Memref sig .tc .vmem S512x512 .f32) (h3 : a3.IsWhole) (a4 : Memref sig .tc .vmem S4096x512 .bf16) (h4 : a4.IsWhole) (a5 : Memref sig .tc .vmem S512x4096 .i32) (h5 : a5.IsWhole) (a6 : Memref sig .tc .vmem S1x1x1 .f32) (h6 : a6.IsWhole) (a7 : Memref sig .tc .vmem S1x1x1 .f32) (h7 : a7.IsWhole) (a8 : Memref sig .tc .vmem S512x4096 .f32) (h8 : a8.IsWhole) (a9 : Memref sig .tc .vmem S512x1 .f32) (h9 : a9.IsWhole) (a10 : Memref sig .tc .vmem S512x1 .f32) (h10 : a10.IsWhole) (hc0 : cond0_0 i) (hc1 : ¬cond0_1 i) (x0 x1 : Vec F S512x512 .f32) (x2 : Vec F S4096x512 .bf16) (x3 : Vec F S512x4096 .i32) :
    sout0_A_2 c i a2 h2 a3 h3 a4 h4 a5 h5 a6 h6 a7 h7 a8 h8 a9 h9 a10 h10 hc0 hc1 x0 x1 x2 x3 = cnt' i x3 k0_pay8 := by
  unfold sout0_A_2
  rw [View.read_writes_eq_canon _ _ _ (scover0_A_2 c i a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S512x1) hz2, View.readCov_unit_zero (S := S512x1) _ hz2]
  simp only [View.readAt_eq_ld, h2.read_unread, h3.read_unread, h4.read_unread, h5.read_unread, h8.read_unread, h9.read_unread, h10.read_unread, View.ld_unit_zero (S := S512x512) hz2, View.ld_unit_zero (S := S4096x512) hz2, View.ld_unit_zero (S := S512x4096) hz2, View.ld_unit_zero (S := S512x1) hz2]
  rfl

/-- Middle step: the neighbour accumulator grows by the step's product. -/
theorem mid_nbr (c : Dev nD) (i : grid0.Coords) (a2 : Memref sig .tc .vmem S512x512 .f32) (h2 : a2.IsWhole) (a3 : Memref sig .tc .vmem S512x512 .f32) (h3 : a3.IsWhole) (a4 : Memref sig .tc .vmem S4096x512 .bf16) (h4 : a4.IsWhole) (a5 : Memref sig .tc .vmem S512x4096 .i32) (h5 : a5.IsWhole) (a6 : Memref sig .tc .vmem S1x1x1 .f32) (h6 : a6.IsWhole) (a7 : Memref sig .tc .vmem S1x1x1 .f32) (h7 : a7.IsWhole) (a8 : Memref sig .tc .vmem S512x4096 .f32) (h8 : a8.IsWhole) (a9 : Memref sig .tc .vmem S512x1 .f32) (h9 : a9.IsWhole) (a10 : Memref sig .tc .vmem S512x1 .f32) (h10 : a10.IsWhole) (hc0 : ¬cond0_0 i) (hc1 : ¬cond0_1 i) (x0 x1 : Vec F S512x512 .f32) (x2 : Vec F S4096x512 .bf16) (x3 : Vec F S512x4096 .i32) (xs0 : Vec F S512x4096 .f32) (xs1 xs2 : Vec F S512x1 .f32) :
    sout0_B_0 c i a2 h2 a3 h3 a4 h4 a5 h5 a6 h6 a7 h7 a8 h8 a9 h9 a10 h10 hc0 hc1 x0 x1 x2 x3 xs0 xs1 xs2 = nbr' x0 x1 x2 xs0 := by
  unfold sout0_B_0
  rw [View.read_writes_eq_canon _ _ _ (scover0_B_0 c i a2 h2 a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero hz2]
  simp only [View.readAt_eq_ld, h2.read_unread, h3.read_unread, h4.read_unread, h5.read_unread, h8.read_unread, h9.read_unread, h10.read_unread, View.ld_unit_zero (S := S512x512) hz2, View.ld_unit_zero (S := S4096x512) hz2, View.ld_unit_zero (S := S512x4096) hz2, View.ld_unit_zero (S := S512x1) hz2]
  rfl

/-- Middle step: the masked-error accumulator grows by the step's row sums. -/
theorem mid_sqm (c : Dev nD) (i : grid0.Coords) (a2 : Memref sig .tc .vmem S512x512 .f32) (h2 : a2.IsWhole) (a3 : Memref sig .tc .vmem S512x512 .f32) (h3 : a3.IsWhole) (a4 : Memref sig .tc .vmem S4096x512 .bf16) (h4 : a4.IsWhole) (a5 : Memref sig .tc .vmem S512x4096 .i32) (h5 : a5.IsWhole) (a6 : Memref sig .tc .vmem S1x1x1 .f32) (h6 : a6.IsWhole) (a7 : Memref sig .tc .vmem S1x1x1 .f32) (h7 : a7.IsWhole) (a8 : Memref sig .tc .vmem S512x4096 .f32) (h8 : a8.IsWhole) (a9 : Memref sig .tc .vmem S512x1 .f32) (h9 : a9.IsWhole) (a10 : Memref sig .tc .vmem S512x1 .f32) (h10 : a10.IsWhole) (hc0 : ¬cond0_0 i) (hc1 : ¬cond0_1 i) (x0 x1 : Vec F S512x512 .f32) (x2 : Vec F S4096x512 .bf16) (x3 : Vec F S512x4096 .i32) (xs0 : Vec F S512x4096 .f32) (xs1 xs2 : Vec F S512x1 .f32) :
    sout0_B_1 c i a2 h2 a3 h3 a4 h4 a5 h5 a6 h6 a7 h7 a8 h8 a9 h9 a10 h10 hc0 hc1 x0 x1 x2 x3 xs0 xs1 xs2 = sqm' i x0 x1 x3 xs1 := by
  unfold sout0_B_1
  rw [View.read_writes_eq_canon _ _ _ (scover0_B_1 c i a2 h2 a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero hz2]
  simp only [View.readAt_eq_ld, h2.read_unread, h3.read_unread, h4.read_unread, h5.read_unread, h8.read_unread, h9.read_unread, h10.read_unread, View.ld_unit_zero (S := S512x512) hz2, View.ld_unit_zero (S := S4096x512) hz2, View.ld_unit_zero (S := S512x4096) hz2, View.ld_unit_zero (S := S512x1) hz2]
  rfl

/-- Middle step: the mask counter grows by the step's row sums. -/
theorem mid_cnt (c : Dev nD) (i : grid0.Coords) (a2 : Memref sig .tc .vmem S512x512 .f32) (h2 : a2.IsWhole) (a3 : Memref sig .tc .vmem S512x512 .f32) (h3 : a3.IsWhole) (a4 : Memref sig .tc .vmem S4096x512 .bf16) (h4 : a4.IsWhole) (a5 : Memref sig .tc .vmem S512x4096 .i32) (h5 : a5.IsWhole) (a6 : Memref sig .tc .vmem S1x1x1 .f32) (h6 : a6.IsWhole) (a7 : Memref sig .tc .vmem S1x1x1 .f32) (h7 : a7.IsWhole) (a8 : Memref sig .tc .vmem S512x4096 .f32) (h8 : a8.IsWhole) (a9 : Memref sig .tc .vmem S512x1 .f32) (h9 : a9.IsWhole) (a10 : Memref sig .tc .vmem S512x1 .f32) (h10 : a10.IsWhole) (hc0 : ¬cond0_0 i) (hc1 : ¬cond0_1 i) (x0 x1 : Vec F S512x512 .f32) (x2 : Vec F S4096x512 .bf16) (x3 : Vec F S512x4096 .i32) (xs0 : Vec F S512x4096 .f32) (xs1 xs2 : Vec F S512x1 .f32) :
    sout0_B_2 c i a2 h2 a3 h3 a4 h4 a5 h5 a6 h6 a7 h7 a8 h8 a9 h9 a10 h10 hc0 hc1 x0 x1 x2 x3 xs0 xs1 xs2 = cnt' i x3 xs2 := by
  unfold sout0_B_2
  rw [View.read_writes_eq_canon _ _ _ (scover0_B_2 c i a2 h2 a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero hz2]
  simp only [View.readAt_eq_ld, h2.read_unread, h3.read_unread, h4.read_unread, h5.read_unread, h8.read_unread, h9.read_unread, h10.read_unread, View.ld_unit_zero (S := S512x512) hz2, View.ld_unit_zero (S := S4096x512) hz2, View.ld_unit_zero (S := S512x4096) hz2, View.ld_unit_zero (S := S512x1) hz2]
  rfl

/-- Last step: the neighbour accumulator grows by the step's product. -/
theorem last_nbr (c : Dev nD) (i : grid0.Coords) (a2 : Memref sig .tc .vmem S512x512 .f32) (h2 : a2.IsWhole) (a3 : Memref sig .tc .vmem S512x512 .f32) (h3 : a3.IsWhole) (a4 : Memref sig .tc .vmem S4096x512 .bf16) (h4 : a4.IsWhole) (a5 : Memref sig .tc .vmem S512x4096 .i32) (h5 : a5.IsWhole) (a6 : Memref sig .tc .vmem S1x1x1 .f32) (h6 : a6.IsWhole) (a7 : Memref sig .tc .vmem S1x1x1 .f32) (h7 : a7.IsWhole) (a8 : Memref sig .tc .vmem S512x4096 .f32) (h8 : a8.IsWhole) (a9 : Memref sig .tc .vmem S512x1 .f32) (h9 : a9.IsWhole) (a10 : Memref sig .tc .vmem S512x1 .f32) (h10 : a10.IsWhole) (hc0 : ¬cond0_0 i) (hc1 : cond0_1 i) (x0 x1 : Vec F S512x512 .f32) (x2 : Vec F S4096x512 .bf16) (x3 : Vec F S512x4096 .i32) (xs0 : Vec F S512x4096 .f32) (xs1 xs2 : Vec F S512x1 .f32) :
    sout0_C_0 c i a2 h2 a3 h3 a4 h4 a5 h5 a6 h6 a7 h7 a8 h8 a9 h9 a10 h10 hc0 hc1 x0 x1 x2 x3 xs0 xs1 xs2 = nbr' x0 x1 x2 xs0 := by
  unfold sout0_C_0
  rw [View.read_writes_eq_canon _ _ _ (scover0_C_0 c i a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz2]
  simp only [View.readAt_eq_ld, h2.read_unread, h3.read_unread, h4.read_unread, h5.read_unread, h8.read_unread, h9.read_unread, h10.read_unread, View.ld_unit_zero (S := S512x512) hz2, View.ld_unit_zero (S := S4096x512) hz2, View.ld_unit_zero (S := S512x4096) hz2, View.ld_unit_zero (S := S512x1) hz2]
  rfl

/-- Last step: the masked-error accumulator grows by the step's row sums. -/
theorem last_sqm (c : Dev nD) (i : grid0.Coords) (a2 : Memref sig .tc .vmem S512x512 .f32) (h2 : a2.IsWhole) (a3 : Memref sig .tc .vmem S512x512 .f32) (h3 : a3.IsWhole) (a4 : Memref sig .tc .vmem S4096x512 .bf16) (h4 : a4.IsWhole) (a5 : Memref sig .tc .vmem S512x4096 .i32) (h5 : a5.IsWhole) (a6 : Memref sig .tc .vmem S1x1x1 .f32) (h6 : a6.IsWhole) (a7 : Memref sig .tc .vmem S1x1x1 .f32) (h7 : a7.IsWhole) (a8 : Memref sig .tc .vmem S512x4096 .f32) (h8 : a8.IsWhole) (a9 : Memref sig .tc .vmem S512x1 .f32) (h9 : a9.IsWhole) (a10 : Memref sig .tc .vmem S512x1 .f32) (h10 : a10.IsWhole) (hc0 : ¬cond0_0 i) (hc1 : cond0_1 i) (x0 x1 : Vec F S512x512 .f32) (x2 : Vec F S4096x512 .bf16) (x3 : Vec F S512x4096 .i32) (xs0 : Vec F S512x4096 .f32) (xs1 xs2 : Vec F S512x1 .f32) :
    sout0_C_1 c i a2 h2 a3 h3 a4 h4 a5 h5 a6 h6 a7 h7 a8 h8 a9 h9 a10 h10 hc0 hc1 x0 x1 x2 x3 xs0 xs1 xs2 = sqm' i x0 x1 x3 xs1 := by
  unfold sout0_C_1
  rw [View.read_writes_eq_canon _ _ _ (scover0_C_1 c i a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz2]
  simp only [View.readAt_eq_ld, h2.read_unread, h3.read_unread, h4.read_unread, h5.read_unread, h8.read_unread, h9.read_unread, h10.read_unread, View.ld_unit_zero (S := S512x512) hz2, View.ld_unit_zero (S := S4096x512) hz2, View.ld_unit_zero (S := S512x4096) hz2, View.ld_unit_zero (S := S512x1) hz2]
  rfl

/-- Last step: the mask counter grows by the step's row sums. -/
theorem last_cnt (c : Dev nD) (i : grid0.Coords) (a2 : Memref sig .tc .vmem S512x512 .f32) (h2 : a2.IsWhole) (a3 : Memref sig .tc .vmem S512x512 .f32) (h3 : a3.IsWhole) (a4 : Memref sig .tc .vmem S4096x512 .bf16) (h4 : a4.IsWhole) (a5 : Memref sig .tc .vmem S512x4096 .i32) (h5 : a5.IsWhole) (a6 : Memref sig .tc .vmem S1x1x1 .f32) (h6 : a6.IsWhole) (a7 : Memref sig .tc .vmem S1x1x1 .f32) (h7 : a7.IsWhole) (a8 : Memref sig .tc .vmem S512x4096 .f32) (h8 : a8.IsWhole) (a9 : Memref sig .tc .vmem S512x1 .f32) (h9 : a9.IsWhole) (a10 : Memref sig .tc .vmem S512x1 .f32) (h10 : a10.IsWhole) (hc0 : ¬cond0_0 i) (hc1 : cond0_1 i) (x0 x1 : Vec F S512x512 .f32) (x2 : Vec F S4096x512 .bf16) (x3 : Vec F S512x4096 .i32) (xs0 : Vec F S512x4096 .f32) (xs1 xs2 : Vec F S512x1 .f32) :
    sout0_C_2 c i a2 h2 a3 h3 a4 h4 a5 h5 a6 h6 a7 h7 a8 h8 a9 h9 a10 h10 hc0 hc1 x0 x1 x2 x3 xs0 xs1 xs2 = cnt' i x3 xs2 := by
  unfold sout0_C_2
  rw [View.read_writes_eq_canon _ _ _ (scover0_C_2 c i a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz2]
  simp only [View.readAt_eq_ld, h2.read_unread, h3.read_unread, h4.read_unread, h5.read_unread, h8.read_unread, h9.read_unread, h10.read_unread, View.ld_unit_zero (S := S512x512) hz2, View.ld_unit_zero (S := S4096x512) hz2, View.ld_unit_zero (S := S512x4096) hz2, View.ld_unit_zero (S := S512x1) hz2]
  rfl

/-- Last step: the first result, over the accumulators as this step leaves them. -/
theorem last_res4 (c : Dev nD) (i : grid0.Coords) (a2 : Memref sig .tc .vmem S512x512 .f32) (h2 : a2.IsWhole) (a3 : Memref sig .tc .vmem S512x512 .f32) (h3 : a3.IsWhole) (a4 : Memref sig .tc .vmem S4096x512 .bf16) (h4 : a4.IsWhole) (a5 : Memref sig .tc .vmem S512x4096 .i32) (h5 : a5.IsWhole) (a6 : Memref sig .tc .vmem S1x1x1 .f32) (h6 : a6.IsWhole) (a7 : Memref sig .tc .vmem S1x1x1 .f32) (h7 : a7.IsWhole) (a8 : Memref sig .tc .vmem S512x4096 .f32) (h8 : a8.IsWhole) (a9 : Memref sig .tc .vmem S512x1 .f32) (h9 : a9.IsWhole) (a10 : Memref sig .tc .vmem S512x1 .f32) (h10 : a10.IsWhole) (hc0 : ¬cond0_0 i) (hc1 : cond0_1 i) (x0 x1 : Vec F S512x512 .f32) (x2 : Vec F S4096x512 .bf16) (x3 : Vec F S512x4096 .i32) (xs0 : Vec F S512x4096 .f32) (xs1 xs2 : Vec F S512x1 .f32) :
    out0_C_4 c i a2 h2 a3 h3 a4 h4 a5 h5 a6 h6 a7 h7 a8 h8 a9 h9 a10 h10 hc0 hc1 x0 x1 x2 x3 xs0 xs1 xs2 = res4 i hc1 x3 (nbr' x0 x1 x2 xs0) (sqm' i x0 x1 x3 xs1) := by
  unfold out0_C_4
  rw [View.read_writes_eq_canon _ _ _ (cover0_C_4 c i a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz3]
  simp only [View.readAt_eq_ld, h2.read_unread, h3.read_unread, h4.read_unread, h5.read_unread, h8.read_unread, h9.read_unread, h10.read_unread, View.ld_unit_zero (S := S512x512) hz2, View.ld_unit_zero (S := S4096x512) hz2, View.ld_unit_zero (S := S512x4096) hz2, View.ld_unit_zero (S := S512x1) hz2]
  simp only [readCov_whole_piece (S := S512x4096) _ hz2, View.readCov_unit_zero (S := S512x1) _ hz2]
  rfl

/-- Last step: the second result, over the counter as this step leaves it. -/
theorem last_res5 (c : Dev nD) (i : grid0.Coords) (a2 : Memref sig .tc .vmem S512x512 .f32) (h2 : a2.IsWhole) (a3 : Memref sig .tc .vmem S512x512 .f32) (h3 : a3.IsWhole) (a4 : Memref sig .tc .vmem S4096x512 .bf16) (h4 : a4.IsWhole) (a5 : Memref sig .tc .vmem S512x4096 .i32) (h5 : a5.IsWhole) (a6 : Memref sig .tc .vmem S1x1x1 .f32) (h6 : a6.IsWhole) (a7 : Memref sig .tc .vmem S1x1x1 .f32) (h7 : a7.IsWhole) (a8 : Memref sig .tc .vmem S512x4096 .f32) (h8 : a8.IsWhole) (a9 : Memref sig .tc .vmem S512x1 .f32) (h9 : a9.IsWhole) (a10 : Memref sig .tc .vmem S512x1 .f32) (h10 : a10.IsWhole) (hc0 : ¬cond0_0 i) (hc1 : cond0_1 i) (x0 x1 : Vec F S512x512 .f32) (x2 : Vec F S4096x512 .bf16) (x3 : Vec F S512x4096 .i32) (xs0 : Vec F S512x4096 .f32) (xs1 xs2 : Vec F S512x1 .f32) :
    out0_C_5 c i a2 h2 a3 h3 a4 h4 a5 h5 a6 h6 a7 h7 a8 h8 a9 h9 a10 h10 hc0 hc1 x0 x1 x2 x3 xs0 xs1 xs2 = k0_pay5 (cnt' i x3 xs2) := by
  unfold out0_C_5
  rw [View.read_writes_eq_canon _ _ _ (cover0_C_5 c i a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz3]
  simp only [View.readAt_eq_ld, h2.read_unread, h3.read_unread, h4.read_unread, h5.read_unread, h8.read_unread, h9.read_unread, h10.read_unread, View.ld_unit_zero (S := S512x512) hz2, View.ld_unit_zero (S := S4096x512) hz2, View.ld_unit_zero (S := S512x4096) hz2, View.ld_unit_zero (S := S512x1) hz2]
  simp only [View.readCov_unit_zero (S := S512x1) _ hz2]
  rfl

end Cert.KernelIdeal.Pieces

end
-- ==== Proof.LibTileSum.lean ====
/-
  Sums over an index range cut into tiles of equal width.

  An index `h < T * w` is `j * w + n` for one tile `j < T` and one offset `n < w`, so a sum over all `h` is the sum over
  the tiles of the sums inside each tile. The partial sums over the tiles `0, …, hh` start at the first tile's sum, grow by
  one tile's sum at a time, and are the whole sum once `hh` is the last tile. Both hold in any commutative additive
  monoid: only the order and the grouping of the terms change.
-/
import Mathlib.Algebra.BigOperators.Fin
import Mathlib.Algebra.BigOperators.Group.Finset.Basic
import Mathlib.Logic.Equiv.Fin.Basic
import Mathlib.Tactic.Ring

namespace Cert.TileSum

variable {M : Type*} [AddCommMonoid M]

/-- The index of offset `n` inside tile `j`. -/
def tileIdx {T w N : ℕ} (hN : N = T * w) (j : Fin T) (n : Fin w) : Fin N :=
  ⟨j.val * w + n.val, by
    have h1 := j.isLt; have h2 := n.isLt
    have : j.val * w + w ≤ T * w := by
      rw [← Nat.succ_mul]; exact Nat.mul_le_mul_right w h1
    omega⟩

@[simp] theorem tileIdx_val {T w N : ℕ} (hN : N = T * w) (j : Fin T) (n : Fin w) :
    (tileIdx hN j n).val = j.val * w + n.val := rfl

/-- A sum over all indices is the sum, over the tiles, of the sums inside each tile. -/
theorem sum_tiles {T w N : ℕ} (hN : N = T * w) (f : Fin N → M) :
    ∑ h : Fin N, f h = ∑ j : Fin T, ∑ n : Fin w, f (tileIdx hN j n) := by
  subst hN
  rw [← Equiv.sum_comp finProdFinEquiv f, Fintype.sum_prod_type]
  refine Finset.sum_congr rfl fun j _ => Finset.sum_congr rfl fun n _ => congrArg f (Fin.ext ?_)
  simp [finProdFinEquiv, tileIdx, Nat.mul_comm, Nat.add_comm]

/-- The sum of the tile values `D j` over the tiles `j ≤ hh`. -/
def upTo {T : ℕ} (D : Fin T → M) (hh : ℕ) : M := ∑ j : Fin T, if j.val ≤ hh then D j else 0

theorem upTo_zero {T : ℕ} (D : Fin T → M) (hT : 0 < T) : upTo D 0 = D ⟨0, hT⟩ := by
  unfold upTo
  rw [Finset.sum_eq_single (⟨0, hT⟩ : Fin T)]
  · simp
  · intro j _ hj
    have : ¬ j.val ≤ 0 := fun h => hj (Fin.ext (by simpa using h))
    simp [this]
  · intro h; exact absurd (Finset.mem_univ _) h

theorem upTo_succ {T : ℕ} (D : Fin T → M) (hh : ℕ) (h : hh + 1 < T) :
    upTo D (hh + 1) = upTo D hh + D ⟨hh + 1, h⟩ := by
  unfold upTo
  have e : ∀ j : Fin T, (if j.val ≤ hh + 1 then D j else 0)
      = (if j.val ≤ hh then D j else 0) + (if j = ⟨hh + 1, h⟩ then D j else 0) := by
    intro j
    by_cases h1 : j.val ≤ hh
    · have h2 : j ≠ ⟨hh + 1, h⟩ := fun e => by
        have e' : j.val = hh + 1 := congrArg Fin.val e
        omega
      rw [if_pos h1, if_pos (Nat.le_succ_of_le h1), if_neg h2, add_zero]
    · by_cases h2 : j = ⟨hh + 1, h⟩
      · have h3 : j.val ≤ hh + 1 := by
          have e' : j.val = hh + 1 := congrArg Fin.val h2
          omega
        rw [if_neg h1, if_pos h3, if_pos h2, zero_add]
      · have h3 : ¬ j.val ≤ hh + 1 := fun h3 => h2 (Fin.ext (by show j.val = hh + 1; omega))
        rw [if_neg h1, if_neg h3, if_neg h2, add_zero]
  simp only [e, Finset.sum_add_distrib, Finset.sum_ite_eq', Finset.mem_univ, if_true]

theorem upTo_last {T : ℕ} (D : Fin T → M) (hh : ℕ) (h : T ≤ hh + 1) : upTo D hh = ∑ j : Fin T, D j := by
  unfold upTo
  refine Finset.sum_congr rfl fun j _ => if_pos ?_
  have := j.isLt; omega

end Cert.TileSum
-- ==== Proof.Spec.lean ====
/-
  The mathematics of the masked squared-error loss with a neighbour term, tile by tile.

  Data: a squared error `sq b n` on a 2048 x 4096 grid, a 0/1 mask `mf b n` on the same grid, and a 4096 x 4096
  neighbour matrix `S`. The neighbour term of entry (b, n) is `sp b n = ∑ j, sq b j * S n j` (row b of `sq` against row n
  of `S`). The loss's numerator is the sum over all entries of `(sq b n + sp b n) * mf b n`, its denominator the sum of
  the mask.

  The tiled computation cuts the rows into 4 tiles of 512 and the columns into 8 tiles of 512. Over the column tiles
  0..k of one row it accumulates three partial sums: of `sq * S n` (the neighbour term of every column n, so far), of
  `sq * mf`, and of `mf`. After the last column tile it adds, per row, the masked neighbour terms `mf * sp` column tile
  by column tile to the accumulated `sq * mf`, and sums the rows of the tile. Summed over the row tiles this is the
  numerator: only the grouping of the terms differs, and `(sq + sp) * mf = sq * mf + mf * sp` because the mask is 0 or 1
  (for those two values the identity holds for every extended real, infinite ones included).
-/
import Mathlib.Data.EReal.Basic
import Mathlib.Data.EReal.Operations
import proofs.«156724_j85701777424698_2_alg».proof.Proof.LibTileSum

noncomputable section

namespace Cert.Spec

open Cert.TileSum

/-- Row `r` of row tile `i`. -/
def row (i : Fin 4) (r : Fin 512) : Fin 2048 := tileIdx (T := 4) (w := 512) (N := 2048) rfl i r
/-- Column `j` of column tile `k`. -/
def col (k : Fin 8) (j : Fin 512) : Fin 4096 := tileIdx (T := 8) (w := 512) (N := 4096) rfl k j

@[simp] theorem row_val (i : Fin 4) (r : Fin 512) : (row i r).val = i.val * 512 + r.val := rfl
@[simp] theorem col_val (k : Fin 8) (j : Fin 512) : (col k j).val = k.val * 512 + j.val := rfl

variable (sq mf : Fin 2048 → Fin 4096 → EReal) (S : Fin 4096 → Fin 4096 → EReal)

/-- The neighbour term of entry (b, n). -/
def sp (b : Fin 2048) (n : Fin 4096) : EReal := ∑ j : Fin 4096, sq b j * S n j

/-- One column tile's share of the neighbour term of (row r of tile i, column n). -/
def nbrTile (i : Fin 4) (r : Fin 512) (n : Fin 4096) (k : Fin 8) : EReal := ∑ j : Fin 512, sq (row i r) (col k j) * S n (col k j)
/-- One column tile's share of the masked squared error of a row. -/
def sqmTile (i : Fin 4) (r : Fin 512) (k : Fin 8) : EReal := ∑ j : Fin 512, sq (row i r) (col k j) * mf (row i r) (col k j)
/-- One column tile's share of the mask count of a row. -/
def cntTile (i : Fin 4) (r : Fin 512) (k : Fin 8) : EReal := ∑ j : Fin 512, mf (row i r) (col k j)

/-- The three accumulators after column tiles 0..kk. -/
def nbrAcc (i : Fin 4) (kk : ℕ) (r : Fin 512) (n : Fin 4096) : EReal := upTo (nbrTile sq S i r n) kk
def sqmAcc (i : Fin 4) (kk : ℕ) (r : Fin 512) : EReal := upTo (sqmTile sq mf i r) kk
def cntAcc (i : Fin 4) (kk : ℕ) (r : Fin 512) : EReal := upTo (cntTile mf i r) kk

/-- One column tile's share of a row's masked neighbour terms, over the finished neighbour accumulator. -/
def mnbrTile (i : Fin 4) (r : Fin 512) (c : Fin 8) : EReal := ∑ j : Fin 512, mf (row i r) (col c j) * nbrAcc sq S i 7 r (col c j)

/-- Row tile `i`'s partial numerator and partial denominator. -/
def numTile (i : Fin 4) : EReal := ∑ r : Fin 512, (sqmAcc sq mf i 7 r + ∑ c : Fin 8, mnbrTile sq mf S i r c)
def denTile (i : Fin 4) : EReal := ∑ r : Fin 512, cntAcc mf i 7 r

theorem nbrAcc_last (i : Fin 4) (r : Fin 512) (n : Fin 4096) : nbrAcc sq S i 7 r n = sp sq S (row i r) n := by
  unfold nbrAcc sp
  rw [upTo_last _ 7 (by omega), sum_tiles (T := 8) (w := 512) rfl]
  rfl

theorem sqmAcc_last (i : Fin 4) (r : Fin 512) : sqmAcc sq mf i 7 r = ∑ n : Fin 4096, sq (row i r) n * mf (row i r) n := by
  unfold sqmAcc
  rw [upTo_last _ 7 (by omega), sum_tiles (T := 8) (w := 512) rfl]
  rfl

theorem cntAcc_last (i : Fin 4) (r : Fin 512) : cntAcc mf i 7 r = ∑ n : Fin 4096, mf (row i r) n := by
  unfold cntAcc
  rw [upTo_last _ 7 (by omega), sum_tiles (T := 8) (w := 512) rfl]
  rfl

/-- The denominators agree: the tiles' mask counts add up to the whole mask count. -/
theorem den_eq : ∑ i : Fin 4, denTile mf i = ∑ b : Fin 2048, ∑ n : Fin 4096, mf b n := by
  rw [sum_tiles (T := 4) (w := 512) rfl]
  refine Finset.sum_congr rfl fun i _ => Finset.sum_congr rfl fun r _ => ?_
  exact cntAcc_last mf i r

/-- With a 0/1 mask, masking the sum is summing the masked terms — on all extended reals. -/
theorem mask_distrib (a b w : EReal) (hw : w = 0 ∨ w = 1) : a * w + w * b = (a + b) * w := by
  rcases hw with rfl | rfl
  · simp
  · simp

/-- The numerators agree. -/
theorem num_eq (hmf : ∀ b n, mf b n = 0 ∨ mf b n = 1) :
    ∑ i : Fin 4, numTile sq mf S i = ∑ b : Fin 2048, ∑ n : Fin 4096, (sq b n + sp sq S b n) * mf b n := by
  rw [sum_tiles (T := 4) (w := 512) rfl]
  refine Finset.sum_congr rfl fun i _ => Finset.sum_congr rfl fun r _ => ?_
  show sqmAcc sq mf i 7 r + ∑ c : Fin 8, mnbrTile sq mf S i r c = ∑ n : Fin 4096, (sq (row i r) n + sp sq S (row i r) n) * mf (row i r) n
  have h2 : ∑ c : Fin 8, mnbrTile sq mf S i r c = ∑ n : Fin 4096, mf (row i r) n * sp sq S (row i r) n := by
    rw [sum_tiles (T := 8) (w := 512) rfl]
    refine Finset.sum_congr rfl fun c _ => Finset.sum_congr rfl fun j _ => ?_
    rw [nbrAcc_last]
    rfl
  rw [sqmAcc_last, h2, ← Finset.sum_add_distrib]
  exact Finset.sum_congr rfl fun n _ => mask_distrib _ _ _ (hmf _ _)

end Cert.Spec

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.LibAxisOps.lean ====
/-
  Four more operations on small-rank vectors read at coordinates. Every statement is over arbitrary extents and spells
  indices by their coordinates.

  * A sum over the FIRST axis of an [A, B] vector of extended reals, at b: the sum over k of the entry at (k, b).
  * A rotation by one place along the last axis of an [A, B] vector, at (a, b): the entry at (a, b - 1), the index
    taken cyclically, so that position 0 reads position B - 1.
  * Channel ch of an [N, T, C] array, cut out as [N, T, 1] and viewed as [N, T], at (b, t): the entry at (b, t, ch).
  * A host "or" over the last axis, of length two, of an [A, B, 2] array of bits, at (a, b): the "or" of the two bits
    and the initial bit.
-/
import Idealize.ShloMosaic.PureOps.Ideal.Laws
import Idealize.ShloMosaic.PureOps.Reduce
import Idealize.ShloMosaic.Lib.ValueIdx
import Idealize.ShloMosaic.Lib.Pipeline.Value

noncomputable section

namespace Cert.LibAxisOps

open Idealize.ShloMosaic Idealize.ShloMosaic.ValueIdx

/-- A sum over the first axis of an [A, B] vector, at b: the sum over k of the entry at (k, b). -/
theorem sum_first2 {A B : ℕ} (src : FVec Ideal ⟨2, ![A, B]⟩ .f32)
    (h : (⟨2, ![A, B]⟩ : Shape).Reduces [0] ⟨1, ![B]⟩) (hφ : FKind.Formats .f32)
    (hacc : (0x00000000#32 : BitVec 32) = 0x00000000#32) (b : Fin B) :
    multiReduction .add [0] ⟨1, ![B]⟩ src 0x00000000#32 h hφ hacc (ix1 b) = ∑ k : Fin A, src (ix2 k b) := by
  refine (Ideal.multiReduction_add_single src 0x00000000#32 h hφ hacc (ix1 b)).trans ?_
  refine Finset.sum_congr rfl fun k _ => congrArg src ?_
  funext d
  match d with
  | ⟨0, _⟩ => rfl
  | ⟨1, _⟩ => rfl

variable {α : Type}

/-- The position one place before `b` on an axis of extent `B`, cyclically. -/
def before {B : ℕ} (b : Fin B) : Fin B := ⟨(b.val + B - 1 % B) % B, Nat.mod_lt _ (Fin.pos b)⟩

/-- A rotation by one place along the last axis of an [A, B] vector, at (a, b): the entry one place before. -/
theorem rotate_one_last2 {A B : ℕ} (x : (⟨2, ![A, B]⟩ : Shape).Idx → α)
    (h : (⟨2, ![A, B]⟩ : Shape).Rotates 1 none) (a : Fin A) (b : Fin B) :
    dynamicRotate 1 1#32 none x h (ix2 a b) = x (ix2 a (before b)) := by
  unfold dynamicRotate
  refine congrArg x (funext fun d => ?_)
  match d with
  | ⟨0, _⟩ => exact if_neg (Fin.ne_of_val_ne Nat.zero_ne_one)
  | ⟨1, _⟩ => exact if_pos rfl

/-- Channel `ch` of an [N, T, C] array, cut out as [N, T, 1] and viewed as [N, T], at (b, t): the entry at (b, t, ch). -/
theorem channel_plane_apply {N T C : ℕ} (X : (⟨3, ![N, T, C]⟩ : Shape).Idx → α) (ch : Fin C)
    (hs : (⟨3, ![N, T, C]⟩ : Shape).Slices ![0, 0, ch.val] ⟨3, ![N, T, 1]⟩)
    (hc : (⟨3, ![N, T, 1]⟩ : Shape).ShapeCasts ⟨2, ![N, T]⟩) (b : Fin N) (t : Fin T) :
    shapeCast ⟨2, ![N, T]⟩ (extractStridedSlice ⟨3, ![N, T, 1]⟩ ![0, 0, ch.val] X hs) hc (ix2 b t) = X (ix3 b t ch) := by
  refine (shapeCast_apply _ hc (ix2 b t) (ix3 b t (0 : Fin 1)) ?_).trans ?_
  · rw [Shape.rowMajor_val_three, Shape.rowMajor_val_two]
    show (b.val * T + t.val) * 1 + 0 = b.val * T + t.val
    omega
  · refine extractStridedSlice_apply ![0, 0, ch.val] X hs (ix3 b t (0 : Fin 1)) (ix3 b t ch) fun a => ?_
    match a with
    | ⟨0, _⟩ => show b.val = 0 + b.val; omega
    | ⟨1, _⟩ => show t.val = 0 + t.val; omega
    | ⟨2, _⟩ => show ch.val = ch.val + 0; omega

/-- An "or" folded over two bits from an initial bit. -/
theorem fold_or_two (g : Fin 2 → BitVec 1) (i0 : BitVec 1) :
    Finset.fold IntOp.ori i0 g (Finset.univ : Finset (Fin 2)) = IntOp.ori (g 0) (IntOp.ori (g 1) i0) := by
  have hU : (Finset.univ : Finset (Fin 2)) = insert 0 {1} := by decide
  rw [hU, Finset.fold_insert (by decide), Finset.fold_singleton]

/-- A host "or" over the last axis, of length two, of an [A, B, 2] array of bits, at (a, b): the "or" of the two bits
    and the initial bit. -/
theorem hostOr_last2 {A B : ℕ} (x : (⟨3, ![A, B, 2]⟩ : Shape).Idx → BitVec 1) (init : (⟨0, ![]⟩ : Shape).Idx → BitVec 1)
    (h' : (⟨3, ![A, B, 2]⟩ : Shape).ReducesTo [2] ⟨2, ![A, B]⟩) (h : (⟨3, ![A, B, 2]⟩ : Shape).Reduces [2] ⟨2, ![A, B]⟩)
    (hu : 0 < (⟨0, ![]⟩ : Shape).numel) (a : Fin A) (b : Fin B) :
    Host.reduce IntOp.ori x init h' hu (ix2 a b)
      = IntOp.ori (x (ix3 a b 0)) (IntOp.ori (x (ix3 a b 1)) (init ix0)) := by
  rw [Host.reduce_eq_fold_single IntOp.ori x init h' h hu (ix2 a b)]
  refine (fold_or_two (x ∘ h.lift (ix2 a b)) (init (Shape.Idx.first hu))).trans ?_
  have e0 : h.lift (ix2 a b) (0 : Fin 2) = ix3 a b 0 := funext fun d => by
    match d with
    | ⟨0, _⟩ => rfl
    | ⟨1, _⟩ => rfl
    | ⟨2, _⟩ => rfl
  have e1 : h.lift (ix2 a b) (1 : Fin 2) = ix3 a b 1 := funext fun d => by
    match d with
    | ⟨0, _⟩ => rfl
    | ⟨1, _⟩ => rfl
    | ⟨2, _⟩ => rfl
  have ei : Shape.Idx.first hu = (ix0 : (⟨0, ![]⟩ : Shape).Idx) := funext fun d => d.elim0
  show IntOp.ori (x (h.lift (ix2 a b) (0 : Fin 2))) (IntOp.ori (x (h.lift (ix2 a b) (1 : Fin 2))) (init (Shape.Idx.first hu))) = _
  rw [e0, e1, ei]

end Cert.LibAxisOps

end
-- ==== Proof.LibRowRowProduct.lean ====
/-
  A matrix product that contracts the SECOND axis of both operands, read at coordinates.

  For `lhs` of extents [A, K] and `rhs` of extents [B, K], the product that pairs row `a` of the first with row `b` of
  the second — `lhs · rhsᵀ` — reads at `(a, b)`, over the extended reals, the sum over `k` of `lhs (a, k) · rhs (b, k)`:
  stated for the accumulating product into a zero accumulator and for the host's product. The dimension record's two
  non-contracted coordinates are taken as hypotheses; at a literal record they hold by computation.
-/
import Idealize.ShloMosaic.PureOps.Ideal.Laws
import Idealize.ShloMosaic.Lib.ValueIdx
import Idealize.ShloMosaic.Lib.Pipeline.Value

noncomputable section

namespace Cert.LibRowRowProduct

open Idealize.ShloMosaic Idealize.ShloMosaic.ValueIdx

section Dot
variable {A K B : ℕ} {φ₁ φ₂ : FTy}
  (d : DotDims ⟨2, ![A, K]⟩ ⟨2, ![B, K]⟩ ⟨2, ![A, B]⟩)
  (hr : d.contr.rank = 1) (hs : d.contr.size ⟨0, by omega⟩ = K)
  (hlc : d.lhsContracting = [1]) (hrc : d.rhsContracting = [1])
  (hl0 : ∀ j k, (d.lhsIdx j k 0).val = (j 0).val) (hr0 : ∀ j k, (d.rhsIdx j k 0).val = (j 1).val)
  (lhs : FVec Ideal ⟨2, ![A, K]⟩ φ₁) (rhs : FVec Ideal ⟨2, ![B, K]⟩ φ₂) (a : Fin A) (b : Fin B)

include hr hs hlc hrc hl0 hr0 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 b k) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 b k := by
    funext c
    apply Fin.ext
    match c with
    | ⟨0, _⟩ => exact hr0 _ _
    | ⟨1, _⟩ => exact (d.rhsIdx_val_of_single hrc _ _).trans (contrEquiv1_symm_val d K hr hs k)
  rw [e1, e2]

include hr hs hlc hrc hl0 hr0 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 b k) :=
  (Ideal.matmul_constant_zero_apply d prec lhs rhs (ix2 a b)).trans (contr_sum d hr hs hlc hrc hl0 hr0 lhs rhs a b)

include hr hs hlc hrc hl0 hr0 in
/-- The host's product, at `(a, b)`. -/
theorem hostDot_apply (prec : Option ContractPrecision) :
    Host.dotGeneral d prec lhs rhs (ix2 a b) = ∑ k : Fin K, lhs (ix2 a k) * rhs (ix2 b k) :=
  (Ideal.dotGeneral_apply d prec .single lhs rhs (ix2 a b)).trans (contr_sum d hr hs hlc hrc hl0 hr0 lhs rhs a b)

end Dot

end Cert.LibRowRowProduct

end
-- ==== Proof.LibUnitLoads.lean ====
/-
  A load through a unit-stride rectangle read at an index.

  The rectangle takes `size a` consecutive coordinates from `off a` on every axis, so the element the load puts at the
  local index `y` is the contents' element at `off + y`, axis by axis. Stated with the target index as a variable and
  its coordinates as a hypothesis, so that a caller names the index by its coordinates and discharges one equation
  per axis.
-/
import Idealize.ShloMosaic.Lib.Pipeline.Value

noncomputable section

namespace Cert.LibUnitLoads

open Idealize.ShloMosaic

variable {Val : EltTy → Type} {S : Shape} {e : EltTy}

/-- The load at `y` is the contents at the index whose every coordinate is the offset plus `y`'s. -/
theorem ld_unit_apply (X : S.Idx → Val e) (off size : Fin S.rank → ℕ) (inb : ∀ a, off a + size a ≤ S.size a)
    (y : (Rect.unit off size inb).shape.Idx) (k : S.Idx) (hk : ∀ a, (k a).val = off a + (y a).val) :
    View.ld X (Rect.unit off size inb) y = X k :=
  congrArg X (funext fun a => Fin.ext (by
    rw [hk a]
    show off a + 1 * (y a).val = off a + (y a).val
    rw [Nat.one_mul]))

end Cert.LibUnitLoads

end
-- ==== Proof.Payloads.lean ====
/-
  The body's arithmetic at coordinates, over the extended reals.

  Each accumulator update reads, at a row (and column), as the old value plus one column tile's sum; the two results
  read as sums over the tile's 512 rows; a slab or a chunk of a [512, 4096] block reads the block at the tile's own
  columns. A squared error is `(y - yhat)²`; a mask word counts `1` when it is not zero and `0` when it is.
-/
import proofs.«156724_j85701777424698_2_alg».proof.Proof.Pieces
import proofs.«156724_j85701777424698_2_alg».proof.Proof.Spec
import proofs.«156724_j85701777424698_2_alg».proof.Proof.LibRowOps
import proofs.«156724_j85701777424698_2_alg».proof.Proof.LibAxisOps
import proofs.«156724_j85701777424698_2_alg».proof.Proof.LibRowRowProduct
import proofs.«156724_j85701777424698_2_alg».proof.Proof.LibUnitLoads
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Payloads

open Cert.KernelIdeal Cert.KernelIdeal.Gen Cert.KernelIdeal.Pieces Cert.Spec

/-- The squared difference. -/
def sqOf (a b : EReal) : EReal := (a - b) * (a - b)
/-- A mask word as a number: one when the word is not zero, zero when it is. -/
def mfOf (w : BitVec 32) : EReal := FloatOps.sitofp (F := Ideal) .f32 ((IntOp.cmpi .ne w 0#32).setWidth 32)

theorem sq_apply (x1 x0 : Vec Ideal S512x512 .f32) (y : S512x512.Idx) : k0_pay9 (F := Ideal) x1 x0 y = sqOf (x1 y) (x0 y) := rfl
theorem mf_apply (v : Vec Ideal S512x512 .i32) (y : S512x512.Idx) : k0_pay10 (F := Ideal) v y = mfOf (v y) := rfl

/-- The three zero fills. -/
theorem zero_nbr (y : S512x4096.Idx) : k0_pay6 (F := Ideal) y = 0 := by
  show shapeCast S512x4096 (broadcast S512x4096 (Scalar.ofBits (F := Ideal) .f32 0x00000000#32)) _ y = 0
  rw [shapeCast_self]
  exact Ideal.ofBits_zero_f32
theorem zero_sqm (y : S512x1.Idx) : k0_pay7 (F := Ideal) y = 0 := by
  show shapeCast S512x1 (broadcast S512x1 (Scalar.ofBits (F := Ideal) .f32 0x00000000#32)) _ y = 0
  rw [shapeCast_self]
  exact Ideal.ofBits_zero_f32
theorem zero_cnt (y : S512x1.Idx) : k0_pay8 (F := Ideal) y = 0 := by
  show shapeCast S512x1 (broadcast S512x1 (Scalar.ofBits (F := Ideal) .f32 0x00000000#32)) _ y = 0
  rw [shapeCast_self]
  exact Ideal.ofBits_zero_f32

theorem dot_l0 (j : S512x4096.Idx) (q : dot_S512x512_S4096x512_S512x4096_1_1_0_0_n_n.contr.Idx) : (dot_S512x512_S4096x512_S512x4096_1_1_0_0_n_n.lhsIdx j q 0).val = (j 0).val := by
  unfold DotDims.lhsIdx
  rw [dif_neg (show ¬(0 : Fin S512x512.rank) ∈ dot_S512x512_S4096x512_S512x4096_1_1_0_0_n_n.lhsBatch by decide), dif_pos (show (0 : Fin S512x512.rank) ∈ dot_S512x512_S4096x512_S512x4096_1_1_0_0_n_n.lhsNonContracting by decide)]
  rfl
theorem dot_r0 (j : S512x4096.Idx) (q : dot_S512x512_S4096x512_S512x4096_1_1_0_0_n_n.contr.Idx) : (dot_S512x512_S4096x512_S512x4096_1_1_0_0_n_n.rhsIdx j q 0).val = (j 1).val := by
  unfold DotDims.rhsIdx
  rw [dif_neg (show ¬(0 : Fin S4096x512.rank) ∈ dot_S512x512_S4096x512_S512x4096_1_1_0_0_n_n.rhsBatch by decide), dif_pos (show (0 : Fin S4096x512.rank) ∈ dot_S512x512_S4096x512_S512x4096_1_1_0_0_n_n.rhsNonContracting by decide)]
  rfl

/-- The neighbour accumulator after a step, at (row r, column n): the old entry plus the step's 512 products of row r's
    squared errors with row n of the neighbour block. -/
theorem nbr'_apply (x0 x1 : Vec Ideal S512x512 .f32) (x2 : Vec Ideal S4096x512 .bf16) (s0 : Vec Ideal S512x4096 .f32) (r : Fin 512) (n : Fin 4096) :
    nbr' x0 x1 x2 s0 (ix2 r n) = s0 (ix2 r n) + ∑ j : Fin 512, sqOf (x1 (ix2 r j)) (x0 (ix2 r j)) * x2 (ix2 n j) := by
  show shapeCast S512x4096 (addf s0 (k0_pay13 x1 x0 x2)) _ (ix2 r n) = _
  rw [shapeCast_self]
  show s0 (ix2 r n) + k0_pay13 x1 x0 x2 (ix2 r n) = _
  congr 1
  show matmul dot_S512x512_S4096x512_S512x4096_1_1_0_0_n_n none (truncf .bf16 (k0_pay9 x1 x0) bitsLt_bf16_f32) (shapeCast S4096x512 x2 _) (constant S512x4096 .f32 0x00000000#32) (ix2 r n) = _
  rw [shapeCast_self]
  exact LibRowRowProduct.matmul_zero_apply dot_S512x512_S4096x512_S512x4096_1_1_0_0_n_n rfl rfl rfl rfl dot_l0 dot_r0 (truncf .bf16 (k0_pay9 x1 x0) bitsLt_bf16_f32) x2 r n none

/-- A lane sum of a [512, 512] vector recast as a column, at row r. -/
theorem rowsum_apply (v : FVec Ideal S512x512 .f32) (h : S512x512.Reduces [1] S512) (hφ : FKind.Formats .f32)
    (hacc : (0x00000000#32 : BitVec 32) = 0x00000000#32) (hc : S512.ShapeCasts S512x1) (r : Fin 512) (z : Fin 1) :
    shapeCast S512x1 (multiReduction .add [1] S512 v 0x00000000#32 h hφ hacc) hc (ix2 r z) = ∑ j : Fin 512, v (ix2 r j) :=
  (LibRowOps.cast_a_a1 _ hc r z).trans (LibRowOps.sum_last2 v h hφ hacc r)

/-- The masked-error accumulator after a step, at row r. -/
theorem sqm_apply (x0 x1 : Vec Ideal S512x512 .f32) (v : Vec Ideal S512x512 .i32) (s1 : Vec Ideal S512x1 .f32) (r : Fin 512) (z : Fin 1) :
    k0_pay11 x1 x0 v s1 (ix2 r z) = s1 (ix2 r z) + ∑ j : Fin 512, sqOf (x1 (ix2 r j)) (x0 (ix2 r j)) * mfOf (v (ix2 r j)) := by
  show shapeCast S512x1 (addf s1 (shapeCast S512x1 (multiReduction .add [1] S512 (mulf (k0_pay9 x1 x0) (k0_pay10 v)) 0x00000000#32 _ _ _) _)) _ (ix2 r z) = _
  rw [shapeCast_self]
  show s1 (ix2 r z) + shapeCast S512x1 (multiReduction .add [1] S512 (mulf (k0_pay9 x1 x0) (k0_pay10 v)) 0x00000000#32 _ _ _) _ (ix2 r z) = _
  congr 1
  exact rowsum_apply _ _ _ _ _ r z

/-- The mask counter after a step, at row r. -/
theorem cnt_apply (v : Vec Ideal S512x512 .i32) (s2 : Vec Ideal S512x1 .f32) (r : Fin 512) (z : Fin 1) :
    k0_pay12 (F := Ideal) v s2 (ix2 r z) = s2 (ix2 r z) + ∑ j : Fin 512, mfOf (v (ix2 r j)) := by
  show shapeCast S512x1 (addf s2 (shapeCast S512x1 (multiReduction .add [1] S512 (k0_pay10 v) 0x00000000#32 _ _ _) _)) _ (ix2 r z) = _
  rw [shapeCast_self]
  show s2 (ix2 r z) + shapeCast S512x1 (multiReduction .add [1] S512 (k0_pay10 v) 0x00000000#32 _ _ _) _ (ix2 r z) = _
  congr 1
  exact rowsum_apply _ _ _ _ _ r z

/-! ## Slabs and chunks -/

/-- An entry of the step's mask columns is the mask block's entry at column tile `k`'s column. -/
theorem slab_apply (i : grid0.Coords) (k : Fin 8) (hk : (i 1).val = k.val) (x3 : Vec Ideal S512x4096 .i32) (r j : Fin 512) :
    slab i x3 (ix2 r j) = x3 (ix2 r (col k j)) := by
  unfold slab
  refine LibUnitLoads.ld_unit_apply x3 (k0_off1 i) S512x512.size (k0_off1_inb i) (ix2 r j) (ix2 r (col k j)) fun a => ?_
  match a with
  | ⟨0, _⟩ =>
    have e : k0_off1 i 0 = 0 := congrFun (k0_off1_eq i) 0
    show r.val = k0_off1 i 0 + r.val
    rw [e]; omega
  | ⟨1, _⟩ =>
    have e : k0_off1 i 1 = 512 * (i 1).val := congrFun (k0_off1_eq i) 1
    show k.val * 512 + j.val = k0_off1 i 1 + j.val
    rw [e]; omega

/-- An entry of column chunk `q` of a block is the block's entry at that chunk's column. -/
theorem chunk_apply {e : EltTy} (i : grid0.Coords) (h : cond0_1 i) (q : Fin 8) (X : Vec Ideal S512x4096 e) (r j : Fin 512) :
    chunk i h q X (ix2 r j) = X (ix2 r (col q j)) := by
  unfold chunk
  refine LibUnitLoads.ld_unit_apply X (k0_off2 (BitVec.ofNat 32 q.val)) S512x512.size (k0_off2_inb i h q) (ix2 r j) (ix2 r (col q j)) fun a => ?_
  match a with
  | ⟨0, _⟩ =>
    have e : k0_off2 (BitVec.ofNat 32 q.val) 0 = 0 := congrFun (k0_off2_eq q) 0
    show r.val = k0_off2 (BitVec.ofNat 32 q.val) 0 + r.val
    rw [e]; omega
  | ⟨1, _⟩ =>
    have e : k0_off2 (BitVec.ofNat 32 q.val) 1 = 512 * q.val := congrFun (k0_off2_eq q) 1
    show q.val * 512 + j.val = k0_off2 (BitVec.ofNat 32 q.val) 1 + j.val
    rw [e]; omega

/-! ## The results -/

/-- One chunk's masked sum of a row: the mask words as numbers against the accumulator's entries. -/
def chunkSum (mq : Vec Ideal S512x512 .i32) (sq : Vec Ideal S512x512 .f32) (r : Fin 512) : EReal :=
  ∑ j : Fin 512, mfOf (mq (ix2 r j)) * sq (ix2 r j)

theorem term_apply (mq : Vec Ideal S512x512 .i32) (sq : Vec Ideal S512x512 .f32) (h : S512x512.Reduces [1] S512) (hφ : FKind.Formats .f32)
    (hacc : (0x00000000#32 : BitVec 32) = 0x00000000#32) (hc : S512.ShapeCasts S512x1) (r : Fin 512) (z : Fin 1) :
    shapeCast S512x1 (multiReduction .add [1] S512 (mulf (sitofp (F := Ideal) .f32 (extui 32 (cmpi .ne mq (constantI S512x512 32 0#32)) natLt_1_32)) sq) 0x00000000#32 h hφ hacc) hc (ix2 r z)
      = chunkSum mq sq r :=
  rowsum_apply _ h hφ hacc hc r z

theorem pay2_apply (m0 : Vec Ideal S512x512 .i32) (s0 : Vec Ideal S512x512 .f32) (m1 : Vec Ideal S512x512 .i32) (s1 : Vec Ideal S512x512 .f32)
    (m2 : Vec Ideal S512x512 .i32) (s2 : Vec Ideal S512x512 .f32) (r : Fin 512) (z : Fin 1) :
    k0_pay2 m0 s0 m1 s1 m2 s2 (ix2 r z) = ((0 + chunkSum m0 s0 r) + chunkSum m1 s1 r) + chunkSum m2 s2 r :=
  congrArg₂ (· + ·) (congrArg₂ (· + ·) (congrArg₂ (· + ·) Ideal.ofBits_zero_f32 (term_apply m0 s0 _ _ _ _ r z)) (term_apply m1 s1 _ _ _ _ r z)) (term_apply m2 s2 _ _ _ _ r z)

theorem pay3_apply (p : FVec Ideal S512x1 .f32) (m3 : Vec Ideal S512x512 .i32) (s3 : Vec Ideal S512x512 .f32) (m4 : Vec Ideal S512x512 .i32) (s4 : Vec Ideal S512x512 .f32)
    (m5 : Vec Ideal S512x512 .i32) (s5 : Vec Ideal S512x512 .f32) (r : Fin 512) (z : Fin 1) :
    k0_pay3 p m3 s3 m4 s4 m5 s5 (ix2 r z) = ((p (ix2 r z) + chunkSum m3 s3 r) + chunkSum m4 s4 r) + chunkSum m5 s5 r :=
  congrArg₂ (· + ·) (congrArg₂ (· + ·) (congrArg₂ (· + ·) rfl (term_apply m3 s3 _ _ _ _ r z)) (term_apply m4 s4 _ _ _ _ r z)) (term_apply m5 s5 _ _ _ _ r z)

/-- A sum over the rows of a [512, 1] column, recast as [1, 1] and then [1, 1, 1], at the one index. -/
theorem colsum_apply (W : FVec Ideal S512x1 .f32) (h : S512x1.Reduces [0] S1) (hφ : FKind.Formats .f32)
    (hacc : (0x00000000#32 : BitVec 32) = 0x00000000#32) (hc1 : S1.ShapeCasts S1x1) (hc2 : S1x1.ShapeCasts S1x1x1) (y : S1x1x1.Idx) :
    shapeCast S1x1x1 (shapeCast S1x1 (multiReduction .add [0] S1 W 0x00000000#32 h hφ hacc) hc1) hc2 y = ∑ r : Fin 512, W (ix2 r 0) := by
  have h0 : (y 0).val < 1 := (y 0).isLt
  have h1 : (y 1).val < 1 := (y 1).isLt
  have h2 : (y 2).val < 1 := (y 2).isLt
  refine (shapeCast_apply _ hc2 y (ix2 (0 : Fin 1) (0 : Fin 1)) ?_).trans ((shapeCast_apply _ hc1 (ix2 (0 : Fin 1) (0 : Fin 1)) (ix1 (0 : Fin 1)) ?_).trans
    (LibAxisOps.sum_first2 W h hφ hacc 0))
  · rw [Shape.rowMajor_val_two, Shape.rowMajor_val_three]
    show 0 * 1 + 0 = ((y 0).val * 1 + (y 1).val) * 1 + (y 2).val
    omega
  · rw [Shape.rowMajor_val_one, Shape.rowMajor_val_two]
    show 0 = 0 * 1 + 0
    omega

theorem pay4_apply (p : FVec Ideal S512x1 .f32) (m6 : Vec Ideal S512x512 .i32) (s6 : Vec Ideal S512x512 .f32) (m7 : Vec Ideal S512x512 .i32) (s7 : Vec Ideal S512x512 .f32)
    (n1 : Vec Ideal S512x1 .f32) (y : S1x1x1.Idx) :
    k0_pay4 p m6 s6 m7 s7 n1 y = ∑ r : Fin 512, (n1 (ix2 r 0) + ((p (ix2 r 0) + chunkSum m6 s6 r) + chunkSum m7 s7 r)) :=
  (colsum_apply _ _ _ _ _ _ y).trans (Finset.sum_congr rfl fun r _ =>
    congrArg₂ (· + ·) rfl (congrArg₂ (· + ·) (congrArg₂ (· + ·) rfl (term_apply m6 s6 _ _ _ _ r 0)) (term_apply m7 s7 _ _ _ _ r 0)))

/-- The second result: the counter's rows summed. -/
theorem pay5_apply (v : Vec Ideal S512x1 .f32) (y : S1x1x1.Idx) : k0_pay5 (F := Ideal) v y = ∑ r : Fin 512, v (ix2 r 0) :=
  colsum_apply v _ _ _ _ _ y

/-- The first result: per row, the finished masked-error entry plus the eight chunks' masked sums over the finished
    neighbour accumulator; then the rows summed. -/
theorem res4_apply (i : grid0.Coords) (h : cond0_1 i) (x3 : Vec Ideal S512x4096 .i32) (n0 : Vec Ideal S512x4096 .f32) (n1 : Vec Ideal S512x1 .f32) (y : S1x1x1.Idx) :
    res4 i h x3 n0 n1 y = ∑ r : Fin 512, (n1 (ix2 r 0) + ∑ q : Fin 8, ∑ j : Fin 512, mfOf (x3 (ix2 r (col q j))) * n0 (ix2 r (col q j))) := by
  unfold res4
  rw [pay4_apply]
  refine Finset.sum_congr rfl fun r _ => congrArg₂ (· + ·) rfl ?_
  rw [pay3_apply, pay2_apply, Fin.sum_univ_eight, zero_add]
  simp only [chunkSum, chunk_apply]

end Cert.KernelIdeal.Payloads

end
-- ==== Proof.Invariant.lean ====
/-
  What the three accumulators hold after each grid point, and what the two results hold after a row tile's last point.

  Grid point `n` is column step `n % 8` of row tile `n / 8`. Its input blocks are the arrays' entries at the tile's rows
  and the step's columns (the mask block: the tile's rows, all columns; the neighbour block: all rows, the step's
  columns). By induction on the point, the accumulators after point `n` are the partial sums over the column tiles
  `0 .. n % 8` of the row tile `n / 8`: a tile's first point starts them from zero, every other point adds one tile.
-/
import proofs.«156724_j85701777424698_2_alg».proof.Proof.Payloads

set_option maxRecDepth 16384

noncomputable section

open Idealize.ShloMosaic Idealize.ShloMosaic.TcCoe Idealize.SL.Sem Idealize.ShloMosaic.ValueIdx

namespace Cert.KernelIdeal.Inv

open Cert.KernelIdeal Cert.KernelIdeal.Gen Cert.KernelIdeal.Pieces Cert.KernelIdeal.Payloads Cert.Spec Cert.TileSum

variable (m : (ℓ : Loc nD τ sig) → Buf (Elt Ideal) ℓ) (c : Dev nD)

/-! ## The data, as functions of a row and a column -/

/-- The squared error at (b, n), from the two float arrays as the region finds them. -/
def sqG (b : Fin 2048) (n : Fin 4096) : EReal := sqOf (V m c main_arg1 (ix2 b n)) (V m c main_arg0 (ix2 b n))
/-- The mask at (b, n) as a number, from the mask words as the region finds them. -/
def mfG (b : Fin 2048) (n : Fin 4096) : EReal := mfOf (V m c main_v1 (ix2 b n))
/-- The neighbour matrix at (n, j), as the region finds it. -/
def SG (n j : Fin 4096) : EReal := V m c main_v0 (ix2 n j)

/-! ## The grid: which block each window stages at a point -/

theorem idx0 : ∀ t : Fin cfg0.N, win0_0.index t 0 = t.val / 8 ∧ win0_0.index t 1 = t.val % 8 := by decide +kernel
theorem idx1 : ∀ t : Fin cfg0.N, win0_1.index t 0 = t.val / 8 ∧ win0_1.index t 1 = t.val % 8 := by decide +kernel
theorem idx2 : ∀ t : Fin cfg0.N, win0_2.index t 0 = 0 ∧ win0_2.index t 1 = t.val % 8 := by decide +kernel
theorem idx3 : ∀ t : Fin cfg0.N, win0_3.index t 0 = t.val / 8 ∧ win0_3.index t 1 = 0 := by decide +kernel
theorem crd1 : ∀ t : Fin cfg0.N, ((grid0.coords t) 1).val = t.val % 8 := by decide +kernel

/-- The row tile and the column step of a grid point. -/
def tI (t : Fin cfg0.N) : Fin 4 := ⟨t.val / 8, by have := t.isLt; have : cfg0.N = 32 := N_0; omega⟩
def tK (t : Fin cfg0.N) : Fin 8 := ⟨t.val % 8, Nat.mod_lt _ (by decide)⟩

theorem blk0_apply (t : Fin cfg0.N) (r j : Fin 512) :
    (iblk m c 0 t : Vec Ideal S512x512 .f32) (ix2 r j) = V m c main_arg0 (ix2 (row (tI t) r) (col (tK t) j)) := by
  unfold iblk
  rw [View.read_apply]
  show V m c main_arg0 _ = V m c main_arg0 _
  refine congrArg _ (funext fun a => Fin.ext ?_)
  match a with
  | ⟨0, _⟩ => show win0_0.index t 0 * 512 + 1 * r.val = (t.val / 8) * 512 + r.val; rw [(idx0 t).1]; omega
  | ⟨1, _⟩ => show win0_0.index t 1 * 512 + 1 * j.val = (t.val % 8) * 512 + j.val; rw [(idx0 t).2]; omega

theorem blk1_apply (t : Fin cfg0.N) (r j : Fin 512) :
    (iblk m c 1 t : Vec Ideal S512x512 .f32) (ix2 r j) = V m c main_arg1 (ix2 (row (tI t) r) (col (tK t) j)) := by
  unfold iblk
  rw [View.read_apply]
  show V m c main_arg1 _ = V m c main_arg1 _
  refine congrArg _ (funext fun a => Fin.ext ?_)
  match a with
  | ⟨0, _⟩ => show win0_1.index t 0 * 512 + 1 * r.val = (t.val / 8) * 512 + r.val; rw [(idx1 t).1]; omega
  | ⟨1, _⟩ => show win0_1.index t 1 * 512 + 1 * j.val = (t.val % 8) * 512 + j.val; rw [(idx1 t).2]; omega

theorem blk2_apply (t : Fin cfg0.N) (n : Fin 4096) (j : Fin 512) :
    (iblk m c 2 t : Vec Ideal S4096x512 .bf16) (ix2 n j) = V m c main_v0 (ix2 n (col (tK t) j)) := by
  unfold iblk
  rw [View.read_apply]
  show V m c main_v0 _ = V m c main_v0 _
  refine congrArg _ (funext fun a => Fin.ext ?_)
  match a with
  | ⟨0, _⟩ => show win0_2.index t 0 * 4096 + 1 * n.val = n.val; rw [(idx2 t).1]; omega
  | ⟨1, _⟩ => show win0_2.index t 1 * 512 + 1 * j.val = (t.val % 8) * 512 + j.val; rw [(idx2 t).2]; omega

theorem blk3_apply (t : Fin cfg0.N) (r : Fin 512) (n : Fin 4096) :
    (iblk m c 3 t : Vec Ideal S512x4096 .i32) (ix2 r n) = V m c main_v1 (ix2 (row (tI t) r) n) := by
  unfold iblk
  rw [View.read_apply]
  show V m c main_v1 _ = V m c main_v1 _
  refine congrArg _ (funext fun a => Fin.ext ?_)
  match a with
  | ⟨0, _⟩ => show win0_3.index t 0 * 512 + 1 * r.val = (t.val / 8) * 512 + r.val; rw [(idx3 t).1]; omega
  | ⟨1, _⟩ => show win0_3.index t 1 * 4096 + 1 * n.val = n.val; rw [(idx3 t).2]; omega

/-! ## One step of each accumulator, at a grid point -/

theorem step_nbr (t : Fin cfg0.N) (s0 : Vec Ideal S512x4096 .f32) (r : Fin 512) (n : Fin 4096) :
    nbr' (iblk m c 0 t) (iblk m c 1 t) (iblk m c 2 t) s0 (ix2 r n) = s0 (ix2 r n) + nbrTile (sqG m c) (SG m c) (tI t) r n (tK t) := by
  rw [nbr'_apply]
  unfold nbrTile sqG SG
  simp only [blk0_apply, blk1_apply, blk2_apply]

theorem step_sqm (t : Fin cfg0.N) (s1 : Vec Ideal S512x1 .f32) (r : Fin 512) (z : Fin 1) :
    sqm' (grid0.coords t) (iblk m c 0 t) (iblk m c 1 t) (iblk m c 3 t) s1 (ix2 r z) = s1 (ix2 r z) + sqmTile (sqG m c) (mfG m c) (tI t) r (tK t) := by
  unfold sqm'
  rw [sqm_apply]
  unfold sqmTile sqG mfG
  simp only [slab_apply (grid0.coords t) (tK t) (crd1 t), blk0_apply, blk1_apply, blk3_apply]

theorem step_cnt (t : Fin cfg0.N) (s2 : Vec Ideal S512x1 .f32) (r : Fin 512) (z : Fin 1) :
    cnt' (grid0.coords t) (iblk m c 3 t) s2 (ix2 r z) = s2 (ix2 r z) + cntTile (mfG m c) (tI t) r (tK t) := by
  unfold cnt'
  rw [cnt_apply]
  unfold cntTile mfG
  simp only [slab_apply (grid0.coords t) (tK t) (crd1 t), blk3_apply]

/-! ## The body's three cases at a grid point -/

/-- What the point before left. -/
abbrev prev (t : Fin cfg0.N) := outsAt0 m c (t.val - 1) (Nat.lt_of_le_of_lt (Nat.sub_le _ _) t.isLt)

theorem at_first (t : Fin cfg0.N) (h0 : t.val % 8 = 0) :
    (outsAt0 m c t.val t.isLt).2.2.1 = nbr' (iblk m c 0 t) (iblk m c 1 t) (iblk m c 2 t) (k0_pay6 (F := Ideal))
    ∧ (outsAt0 m c t.val t.isLt).2.2.2.1 = sqm' (grid0.coords t) (iblk m c 0 t) (iblk m c 1 t) (iblk m c 3 t) (k0_pay7 (F := Ideal))
    ∧ (outsAt0 m c t.val t.isLt).2.2.2.2 = cnt' (grid0.coords t) (iblk m c 3 t) (k0_pay8 (F := Ideal)) := by
  have h1 : ¬t.val % 8 = 7 := by omega
  rw [outsAt0_A m c t h0 h1]
  dsimp only
  exact ⟨first_nbr (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    first_sqm (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    first_cnt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)⟩

theorem at_mid (t : Fin cfg0.N) (h0 : ¬t.val % 8 = 0) (h1 : ¬t.val % 8 = 7) :
    (outsAt0 m c t.val t.isLt).2.2.1 = nbr' (iblk m c 0 t) (iblk m c 1 t) (iblk m c 2 t) (prev m c t).2.2.1
    ∧ (outsAt0 m c t.val t.isLt).2.2.2.1 = sqm' (grid0.coords t) (iblk m c 0 t) (iblk m c 1 t) (iblk m c 3 t) (prev m c t).2.2.2.1
    ∧ (outsAt0 m c t.val t.isLt).2.2.2.2 = cnt' (grid0.coords t) (iblk m c 3 t) (prev m c t).2.2.2.2 := by
  rw [outsAt0_B m c t h0 h1]
  dsimp only
  exact ⟨mid_nbr (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (prev m c t).2.2.1 (prev m c t).2.2.2.1 (prev m c t).2.2.2.2,
    mid_sqm (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (prev m c t).2.2.1 (prev m c t).2.2.2.1 (prev m c t).2.2.2.2,
    mid_cnt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (prev m c t).2.2.1 (prev m c t).2.2.2.1 (prev m c t).2.2.2.2⟩

theorem at_last (t : Fin cfg0.N) (h0 : ¬t.val % 8 = 0) (h1 : t.val % 8 = 7) :
    (outsAt0 m c t.val t.isLt).1 = res4 (grid0.coords t) ((hcond0_1 t).mpr h1) (iblk m c 3 t)
        (nbr' (iblk m c 0 t) (iblk m c 1 t) (iblk m c 2 t) (prev m c t).2.2.1)
        (sqm' (grid0.coords t) (iblk m c 0 t) (iblk m c 1 t) (iblk m c 3 t) (prev m c t).2.2.2.1)
    ∧ (outsAt0 m c t.val t.isLt).2.1 = k0_pay5 (cnt' (grid0.coords t) (iblk m c 3 t) (prev m c t).2.2.2.2)
    ∧ (outsAt0 m c t.val t.isLt).2.2.1 = nbr' (iblk m c 0 t) (iblk m c 1 t) (iblk m c 2 t) (prev m c t).2.2.1
    ∧ (outsAt0 m c t.val t.isLt).2.2.2.1 = sqm' (grid0.coords t) (iblk m c 0 t) (iblk m c 1 t) (iblk m c 3 t) (prev m c t).2.2.2.1
    ∧ (outsAt0 m c t.val t.isLt).2.2.2.2 = cnt' (grid0.coords t) (iblk m c 3 t) (prev m c t).2.2.2.2 := by
  rw [outsAt0_C m c t h0 h1]
  dsimp only
  exact ⟨last_res4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.1 (prev m c t).2.2.2.1 (prev m c t).2.2.2.2,
    last_res5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.1 (prev m c t).2.2.2.1 (prev m c t).2.2.2.2,
    last_nbr (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.1 (prev m c t).2.2.2.1 (prev m c t).2.2.2.2,
    last_sqm (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.1 (prev m c t).2.2.2.1 (prev m c t).2.2.2.2,
    last_cnt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.1 (prev m c t).2.2.2.1 (prev m c t).2.2.2.2⟩

/-! ## The accumulators after every point -/

/-- A partial sum over the tiles up to `a`, plus tile `a + 1`, is the partial sum up to `a + 1`. -/
theorem upTo_step {M : Type*} [AddCommMonoid M] {T : ℕ} (D : Fin T → M) (a b : ℕ) (hb : b < T) (hab : a + 1 = b) :
    upTo D a + D ⟨b, hb⟩ = upTo D b := by
  subst hab; exact (upTo_succ D a hb).symm

/-- After point `n`: the three accumulators are the partial sums of row tile `n / 8` over the column tiles `0 .. n % 8`. -/
def AccAt (n : ℕ) (hn : n < cfg0.N) : Prop :=
    (∀ r nn, (outsAt0 m c n hn).2.2.1 (ix2 r nn) = nbrAcc (sqG m c) (SG m c) (tI ⟨n, hn⟩) (n % 8) r nn)
    ∧ (∀ r z, (outsAt0 m c n hn).2.2.2.1 (ix2 r z) = sqmAcc (sqG m c) (mfG m c) (tI ⟨n, hn⟩) (n % 8) r)
    ∧ (∀ r z, (outsAt0 m c n hn).2.2.2.2 (ix2 r z) = cntAcc (mfG m c) (tI ⟨n, hn⟩) (n % 8) r)

/-- A row tile's first point: zero, plus the first column tile. -/
theorem acc_first (t : Fin cfg0.N) (h0 : t.val % 8 = 0) : AccAt m c t.val t.isLt := by
  obtain ⟨e0, e1, e2⟩ := at_first m c t h0
  have hk : tK t = ⟨0, by decide⟩ := Fin.ext h0
  refine ⟨fun r nn => ?_, fun r z => ?_, fun r z => ?_⟩
  · rw [e0, step_nbr, zero_nbr, zero_add, hk, h0]
    exact (upTo_zero _ (by decide)).symm
  · rw [e1, step_sqm, zero_sqm, zero_add, hk, h0]
    exact (upTo_zero _ (by decide)).symm
  · rw [e2, step_cnt, zero_cnt, zero_add, hk, h0]
    exact (upTo_zero _ (by decide)).symm

/-- Any other point: what the point before left, plus one more column tile. -/
theorem acc_next (n : ℕ) (hn : n + 1 < cfg0.N) (h0 : ¬(n + 1) % 8 = 0) (ih : AccAt m c n (Nat.lt_of_succ_lt hn)) :
    AccAt m c (n + 1) hn := by
  obtain ⟨i0, i1, i2⟩ := ih
  have hI : tI (⟨n, Nat.lt_of_succ_lt hn⟩ : Fin cfg0.N) = tI ⟨n + 1, hn⟩ := Fin.ext (by show n / 8 = (n + 1) / 8; omega)
  have hK : n % 8 + 1 = (n + 1) % 8 := by omega
  have e := (show _ ∧ _ ∧ _ from by
    by_cases h1 : (n + 1) % 8 = 7
    · obtain ⟨_, _, a, b, d⟩ := at_last m c ⟨n + 1, hn⟩ h0 h1
      exact ⟨a, b, d⟩
    · exact at_mid m c ⟨n + 1, hn⟩ h0 h1)
  obtain ⟨e0, e1, e2⟩ := e
  refine ⟨fun r nn => ?_, fun r z => ?_, fun r z => ?_⟩
  · refine (congrFun e0 _).trans ((step_nbr m c ⟨n + 1, hn⟩ _ r nn).trans ?_)
    rw [show (prev m c ⟨n + 1, hn⟩).2.2.1 (ix2 r nn) = _ from i0 r nn, hI]
    exact upTo_step _ (n % 8) ((n + 1) % 8) _ hK
  · refine (congrFun e1 _).trans ((step_sqm m c ⟨n + 1, hn⟩ _ r z).trans ?_)
    rw [show (prev m c ⟨n + 1, hn⟩).2.2.2.1 (ix2 r z) = _ from i1 r z, hI]
    exact upTo_step _ (n % 8) ((n + 1) % 8) _ hK
  · refine (congrFun e2 _).trans ((step_cnt m c ⟨n + 1, hn⟩ _ r z).trans ?_)
    rw [show (prev m c ⟨n + 1, hn⟩).2.2.2.2 (ix2 r z) = _ from i2 r z, hI]
    exact upTo_step _ (n % 8) ((n + 1) % 8) _ hK

theorem acc_eq : ∀ (n : ℕ) (hn : n < cfg0.N), AccAt m c n hn := by
  intro n
  induction n with
  | zero => intro hn; exact acc_first m c ⟨0, hn⟩ rfl
  | succ n ih =>
    intro hn
    by_cases h0 : (n + 1) % 8 = 0
    · exact acc_first m c ⟨n + 1, hn⟩ h0
    · exact acc_next m c n hn h0 (ih (Nat.lt_of_succ_lt hn))

/-! ## The two results after a row tile's last point -/

theorem res_eq (t : Fin cfg0.N) (h1 : t.val % 8 = 7) (y : S1x1x1.Idx) :
    (outsAt0 m c t.val t.isLt).1 y = numTile (sqG m c) (mfG m c) (SG m c) (tI t)
    ∧ (outsAt0 m c t.val t.isLt).2.1 y = denTile (mfG m c) (tI t) := by
  have h0 : ¬t.val % 8 = 0 := by omega
  obtain ⟨e4, e5, e0, e1, e2⟩ := at_last m c t h0 h1
  obtain ⟨a0, a1, a2⟩ := acc_eq m c t.val t.isLt
  constructor
  · rw [e4, ← e0, ← e1, res4_apply]
    unfold numTile mnbrTile
    refine Finset.sum_congr rfl fun r _ => ?_
    rw [a1, h1]
    refine congrArg₂ (· + ·) rfl ?_
    refine Finset.sum_congr rfl fun q _ => Finset.sum_congr rfl fun j _ => ?_
    rw [a0, h1, blk3_apply]
    rfl
  · rw [e5, ← e2, pay5_apply]
    unfold denTile
    refine Finset.sum_congr rfl fun r _ => ?_
    rw [a2, h1]

end Cert.KernelIdeal.Inv

end
-- ==== Proof.KernelNum.lean ====
/-
  The kernel's first result array as a value: at row tile `i`, that tile's partial numerator.

  Tile `i`'s block is written back once, after its last column step (grid point `8 i + 7`), and the four blocks cover
  the array.
-/
import proofs.«156724_j85701777424698_2_alg».proof.Proof.Invariant
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Inv Cert.Spec

variable (m : (ℓ : Loc nD τ sig) → Buf (Elt Ideal) ℓ) (c : Dev nD)

/-- The result array: row tile `i`'s partial numerator. -/
def partNum : S4x1x1.Idx → EReal := fun i => numTile (sqG m c) (mfG m c) (SG m c) (i 0)

theorem idx4 : ∀ t : Fin cfg0.N, win0_4.index t 0 = t.val / 8 ∧ win0_4.index t 1 = 0 ∧ win0_4.index t 2 = 0 := by decide +kernel
theorem xs4 : ∀ t : Fin cfg0.N, ∀ a, win0_4.xsize (grid0.coords t) a = 1 := by decide +kernel
theorem sz4 : ∀ a, win0_4.size a = 1 := by decide

/-- The block a point writes back sits at the point's row tile. -/
theorem emb4 (t : Fin cfg0.N) (y : ((cfg0.win 4).xblock (grid0.coords t)).Idx) :
    (((cfg0.win 4).blk t).view.emb y) 0 = tI t := by
  apply Fin.ext
  show win0_4.index t 0 * 1 + 1 * (y 0).val = t.val / 8
  have hy : (y 0).val < 1 := (y 0).isLt
  rw [(idx4 t).1]; omega

/-- A block holding one value `g` of the point's row tile is the point's block of the array `i ↦ g (i's row tile)`,
    for any `g`. -/
theorem block_of_tile4 (g : Fin 4 → EReal) (t : Fin cfg0.N) :
    (cfg0.win 4).cut (grid0.coords t) (fun _ => g (tI t)) = ((cfg0.win 4).blk t).view.read (Elt Ideal) (fun i => g (i 0)) := by
  funext y
  rw [View.read_apply]
  show g (tI t) = g ((((cfg0.win 4).blk t).view.emb y) 0)
  rw [emb4 t y]

/-- What a write-back writes is the tile's block of the result array. -/
theorem flushed4_eq (t : Fin cfg0.N) (hf : (cfg0.win 4).flush t = true) :
    (dats m 0 c).flushed 4 t = ((cfg0.win 4).blk t).view.read (Elt Ideal) (partNum m c) := by
  have h7 : t.val % 8 = 7 := (flush0_4 t).mp hf
  have e : (outsAt0 m c t.val t.isLt).1 = fun _ => numTile (sqG m c) (mfG m c) (SG m c) (tI t) :=
    funext fun y => (res_eq m c t h7 y).1
  have e' := (after0_4 m c t).trans e
  show (cfg0.win 4).cut (grid0.coords t) ((dats m 0 c).after 4 t) = _
  rw [e']
  unfold partNum
  exact block_of_tile4 (numTile (sqG m c) (mfG m c) (SG m c)) t

/-- Every entry of the result array is written back: entry `i` by point `8 i + 7`. -/
theorem cover4 (i : S4x1x1.Idx) : ∃ t : Fin cfg0.N, (cfg0.win 4).flush t = true ∧ i ∈ ((cfg0.win 4).blk t).view.set := by
  have hi : (i 0).val < 4 := (i 0).isLt
  have h1 : (i 1).val < 1 := (i 1).isLt
  have h2 : (i 2).val < 1 := (i 2).isLt
  have hN : cfg0.N = 32 := N_0
  have hlt : (i 0).val * 8 + 7 < cfg0.N := by omega
  refine ⟨⟨(i 0).val * 8 + 7, hlt⟩, (flush0_4 _).mpr (by show ((i 0).val * 8 + 7) % 8 = 7; omega), ?_⟩
  show i ∈ ((View.whole main_v2_0).slice (win0_4.rect ⟨(i 0).val * 8 + 7, hlt⟩)).set
  rw [View.set_slice_whole, Rect.mem_set_unit]
  intro a
  obtain ⟨e0, e1, e2⟩ := idx4 ⟨(i 0).val * 8 + 7, hlt⟩
  have e0' : win0_4.index ⟨(i 0).val * 8 + 7, hlt⟩ 0 = ((i 0).val * 8 + 7) / 8 := e0
  rw [xs4 _ a, sz4 a]
  match a with
  | ⟨0, _⟩ =>
    show win0_4.index ⟨(i 0).val * 8 + 7, hlt⟩ 0 * 1 ≤ (i 0).val ∧ (i 0).val < win0_4.index ⟨(i 0).val * 8 + 7, hlt⟩ 0 * 1 + 1
    rw [e0']; omega
  | ⟨1, _⟩ =>
    show win0_4.index ⟨(i 0).val * 8 + 7, hlt⟩ 1 * 1 ≤ (i 1).val ∧ (i 1).val < win0_4.index ⟨(i 0).val * 8 + 7, hlt⟩ 1 * 1 + 1
    rw [e1]; omega
  | ⟨2, _⟩ =>
    show win0_4.index ⟨(i 0).val * 8 + 7, hlt⟩ 2 * 1 ≤ (i 2).val ∧ (i 2).val < win0_4.index ⟨(i 0).val * 8 + 7, hlt⟩ 2 * 1 + 1
    rw [e2]; omega

/-- So the result array ends at the tiles' partials. -/
theorem final4 : (dats m 0 c).arrAt 4 cfg0.N = partNum m c :=
  (dats m 0 c).arrAt_eq_of_cover 4 (partNum m c) (flushed4_eq m c) (cover4)

end Cert.KernelIdeal.Result

end
-- ==== Proof.KernelDen.lean ====
/-
  The kernel's second result array as a value: at row tile `i`, that tile's partial denominator.

  Tile `i`'s block is written back once, after its last column step (grid point `8 i + 7`), and the four blocks cover
  the array.
-/
import proofs.«156724_j85701777424698_2_alg».proof.Proof.Invariant
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Inv Cert.Spec

variable (m : (ℓ : Loc nD τ sig) → Buf (Elt Ideal) ℓ) (c : Dev nD)

/-- The result array: row tile `i`'s partial denominator. -/
def partDen : S4x1x1.Idx → EReal := fun i => denTile (mfG m c) (i 0)

theorem idx5 : ∀ t : Fin cfg0.N, win0_5.index t 0 = t.val / 8 ∧ win0_5.index t 1 = 0 ∧ win0_5.index t 2 = 0 := by decide +kernel
theorem xs5 : ∀ t : Fin cfg0.N, ∀ a, win0_5.xsize (grid0.coords t) a = 1 := by decide +kernel
theorem sz5 : ∀ a, win0_5.size a = 1 := by decide

/-- The block a point writes back sits at the point's row tile. -/
theorem emb5 (t : Fin cfg0.N) (y : ((cfg0.win 5).xblock (grid0.coords t)).Idx) :
    (((cfg0.win 5).blk t).view.emb y) 0 = tI t := by
  apply Fin.ext
  show win0_5.index t 0 * 1 + 1 * (y 0).val = t.val / 8
  have hy : (y 0).val < 1 := (y 0).isLt
  rw [(idx5 t).1]; omega

/-- A block holding one value `g` of the point's row tile is the point's block of the array `i ↦ g (i's row tile)`,
    for any `g`. -/
theorem block_of_tile5 (g : Fin 4 → EReal) (t : Fin cfg0.N) :
    (cfg0.win 5).cut (grid0.coords t) (fun _ => g (tI t)) = ((cfg0.win 5).blk t).view.read (Elt Ideal) (fun i => g (i 0)) := by
  funext y
  rw [View.read_apply]
  show g (tI t) = g ((((cfg0.win 5).blk t).view.emb y) 0)
  rw [emb5 t y]

/-- What a write-back writes is the tile's block of the result array. -/
theorem flushed5_eq (t : Fin cfg0.N) (hf : (cfg0.win 5).flush t = true) :
    (dats m 0 c).flushed 5 t = ((cfg0.win 5).blk t).view.read (Elt Ideal) (partDen m c) := by
  have h7 : t.val % 8 = 7 := (flush0_5 t).mp hf
  have e : (outsAt0 m c t.val t.isLt).2.1 = fun _ => denTile (mfG m c) (tI t) :=
    funext fun y => (res_eq m c t h7 y).2
  have e' := (after0_5 m c t).trans e
  show (cfg0.win 5).cut (grid0.coords t) ((dats m 0 c).after 5 t) = _
  rw [e']
  unfold partDen
  exact block_of_tile5 (denTile (mfG m c)) t

/-- Every entry of the result array is written back: entry `i` by point `8 i + 7`. -/
theorem cover5 (i : S4x1x1.Idx) : ∃ t : Fin cfg0.N, (cfg0.win 5).flush t = true ∧ i ∈ ((cfg0.win 5).blk t).view.set := by
  have hi : (i 0).val < 4 := (i 0).isLt
  have h1 : (i 1).val < 1 := (i 1).isLt
  have h2 : (i 2).val < 1 := (i 2).isLt
  have hN : cfg0.N = 32 := N_0
  have hlt : (i 0).val * 8 + 7 < cfg0.N := by omega
  refine ⟨⟨(i 0).val * 8 + 7, hlt⟩, (flush0_5 _).mpr (by show ((i 0).val * 8 + 7) % 8 = 7; omega), ?_⟩
  show i ∈ ((View.whole main_v2_1).slice (win0_5.rect ⟨(i 0).val * 8 + 7, hlt⟩)).set
  rw [View.set_slice_whole, Rect.mem_set_unit]
  intro a
  obtain ⟨e0, e1, e2⟩ := idx5 ⟨(i 0).val * 8 + 7, hlt⟩
  have e0' : win0_5.index ⟨(i 0).val * 8 + 7, hlt⟩ 0 = ((i 0).val * 8 + 7) / 8 := e0
  rw [xs5 _ a, sz5 a]
  match a with
  | ⟨0, _⟩ =>
    show win0_5.index ⟨(i 0).val * 8 + 7, hlt⟩ 0 * 1 ≤ (i 0).val ∧ (i 0).val < win0_5.index ⟨(i 0).val * 8 + 7, hlt⟩ 0 * 1 + 1
    rw [e0']; omega
  | ⟨1, _⟩ =>
    show win0_5.index ⟨(i 0).val * 8 + 7, hlt⟩ 1 * 1 ≤ (i 1).val ∧ (i 1).val < win0_5.index ⟨(i 0).val * 8 + 7, hlt⟩ 1 * 1 + 1
    rw [e1]; omega
  | ⟨2, _⟩ =>
    show win0_5.index ⟨(i 0).val * 8 + 7, hlt⟩ 2 * 1 ≤ (i 2).val ∧ (i 2).val < win0_5.index ⟨(i 0).val * 8 + 7, hlt⟩ 2 * 1 + 1
    rw [e2]; omega

/-- So the result array ends at the tiles' partials. -/
theorem final5 : (dats m 0 c).arrAt 5 cfg0.N = partDen m c :=
  (dats m 0 c).arrAt_eq_of_cover 5 (partDen m c) (flushed5_eq m c) (cover5)

end Cert.KernelIdeal.Result

end
-- ==== Proof.KernelRun.lean ====
/-
  The kernel's run, read as a value: the host lines after the region applied to the two result arrays.
-/
import proofs.«156724_j85701777424698_2_alg».proof.Proof.KernelNum
import proofs.«156724_j85701777424698_2_alg».proof.Proof.KernelDen
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Inv Cert.Spec Idealize.ShloMosaic.StableHlo

variable (m : (ℓ : Loc nD τ sig) → Buf (Elt Ideal) ℓ) (ρ : Dev nD → PrngReg) (c : Dev nD)

/-- The host lines after the region, over the two result arrays. -/
def loss (num den : (⟨S4x1x1, .f32⟩ : BufTy).Contents (Elt Ideal)) : (⟨S_, .f32⟩ : BufTy).Contents (Elt Ideal) :=
  Host.sqrt (F := Ideal) (addf (Host.divf (F := Ideal) (Host.reduceAdd (F := Ideal) num (constant (F := Ideal) S_ .f32 0x00000000#32) reducesTo_S4x1x1_S_d0_1_2 h_S_)
    (Host.reduceAdd (F := Ideal) den (constant (F := Ideal) S_ .f32 0x00000000#32) reducesTo_S4x1x1_S_d0_1_2 h_S_)) (constant (F := Ideal) S_ .f32 0x358637BD#32))

/-- What @main's result holds after the run. -/
theorem tail_eq : Pipeline.afterTail₀ cfgs (dats m) 0 (V0 m) [hostOps1] c main_v7 = loss (partNum m c) (partDen m c) := by
  unfold Pipeline.afterTail₀
  show StableHlo.after hostOps1 _ (Proc.devRef .tc main_v7) = _
  after_results
  rw [show Pipeline.withArrays (cfgs 0).spec c (V0 m c) (fun w => (dats m 0 c).arrAt w (cfgs 0).N) (Proc.tc.devRef main_v2_0) = partNum m c from
      (Pipeline.withArrays_arr spec0 launch0.win.arr_inj c _ _ 4).trans (final4 m c),
    show Pipeline.withArrays (cfgs 0).spec c (V0 m c) (fun w => (dats m 0 c).arrAt w (cfgs 0).N) (Proc.tc.devRef main_v2_1) = partDen m c from
      (Pipeline.withArrays_arr spec0 launch0.win.arr_inj c _ _ 5).trans (final5 m c)]
  rfl

/-- The run, read: @main's result at the loss of the partial sums, the four arguments unchanged. -/
theorem run : θ_run defs (onTc (τ := τ) (main (F := Ideal))) ⟨m, fun _ => 0, ρ⟩ fun r => ∀ c : Dev nD,
      r.2.mem ((c.tc : Thread nD τ).loc main_v7) = loss (partNum m c) (partDen m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefValue.lean ====
/-
  The reference's result at the ideal instance, read one host operation at a time.

  Over the raw argument arrays: `sqA` is the squared error, `mfA` the mask bit read as a number, `SA` the neighbour matrix.
  The reference's numerator is zero plus the sum over all entries of `(sqA + neighbour term) * mfA`, its denominator zero
  plus the sum of `mfA`; its result is the square root of their quotient plus the constant.
-/
import proofs.«156724_j85701777424698_2_alg».proof.Defs
import proofs.«156724_j85701777424698_2_alg».proof.Proof.Gen.ReferenceIdeal.Run
import proofs.«156724_j85701777424698_2_alg».proof.Proof.Gen.ReferenceIdeal.Read
import proofs.«156724_j85701777424698_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.Spec

variable (x0 x1 : (⟨S2048x4096, .f32⟩ : BufTy).Contents (Elt Ideal)) (x2 : (⟨S2048x4096, .i1⟩ : BufTy).Contents (Elt Ideal))
  (x3 : (⟨S4096x4096, .f32⟩ : BufTy).Contents (Elt Ideal))

/-- The squared error at (b, n). -/
def sqA (b : Fin 2048) (n : Fin 4096) : EReal := (x1 (ix2 b n) - x0 (ix2 b n)) * (x1 (ix2 b n) - x0 (ix2 b n))
/-- The mask bit at (b, n), as a number. -/
def mfA (b : Fin 2048) (n : Fin 4096) : EReal := (((x2 (ix2 b n)).toNat : ℝ) : EReal)
/-- The neighbour matrix at (n, j). -/
def SA (n j : Fin 4096) : EReal := x3 (ix2 n j)

theorem lidx_eq (b : Fin 2048) (n k : Fin 4096) : lidx_main_v2 (ix2 b n) k = ix2 b k :=
  funext fun a => by match a with | ⟨0, _⟩ => rfl | ⟨1, _⟩ => rfl
theorem ridx_eq (b : Fin 2048) (n k : Fin 4096) : ridx_main_v2 (ix2 b n) k = ix2 n k :=
  funext fun a => by match a with | ⟨0, _⟩ => rfl | ⟨1, _⟩ => rfl

/-- The reference's numerator. -/
theorem num_apply (i : S_.Idx) :
    val_main_v7 (F := Ideal) x0 x1 x2 x3 i
      = 0 + ∑ b : Fin 2048, ∑ n : Fin 4096, (sqA x0 x1 b n + sp (sqA x0 x1) (SA x3) b n) * mfA x2 b n := by
  rw [val_main_v7_apply, sum_idx2]
  refine congrArg₂ (· + ·) Ideal.ofBits_zero_f32 (Finset.sum_congr rfl fun b _ => Finset.sum_congr rfl fun n _ => ?_)
  rw [val_main_v6_apply, val_main_v3_apply, val_main_v2_apply]
  simp only [lidx_eq, ridx_eq]
  rfl

/-- The reference's denominator. -/
theorem den_apply (i : S_.Idx) :
    val_main_v5 (F := Ideal) x2 i = 0 + ∑ b : Fin 2048, ∑ n : Fin 4096, mfA x2 b n := by
  rw [val_main_v5_apply, sum_idx2]
  exact congrArg₂ (· + ·) Ideal.ofBits_zero_f32 rfl

/-- A mask bit counts zero or one. -/
theorem mfA_01 (b : Fin 2048) (n : Fin 4096) : mfA x2 b n = 0 ∨ mfA x2 b n = 1 := by
  unfold mfA
  have h : ∀ w : BitVec 1, w.toNat = 0 ∨ w.toNat = 1 := by decide
  rcases h (x2 (ix2 b n)) with e | e <;> rw [e] <;> simp

end Cert.ReferenceIdeal.RefValue

end
-- ==== Proof.Bridge.lean ====
/-
  The kernel's result is the reference's result.

  Both are the square root of (numerator / denominator + the same constant). The kernel's numerator is zero plus the sum
  of its four per-tile partials, the reference's zero plus the sum over all entries; the specification's tile algebra
  makes them equal, and likewise the denominators. The data agree: the kernel reads the two float arrays as they are, the
  neighbour matrix through a change of float format (the identity on extended reals), and the mask bit widened to a
  32-bit word and tested against zero — which counts one exactly when the bit is one.
-/
import proofs.«156724_j85701777424698_2_alg».proof.Proof.KernelRun
import proofs.«156724_j85701777424698_2_alg».proof.Proof.RefValue

set_option maxRecDepth 16384

noncomputable section

open Idealize.ShloMosaic Idealize.ShloMosaic.TcCoe Idealize.SL.Sem Idealize.ShloMosaic.ValueIdx

namespace Cert.Bridge

open Cert.KernelIdeal Cert.KernelIdeal.Gen Cert.KernelIdeal.Inv Cert.KernelIdeal.Result Cert.KernelIdeal.Payloads Cert.Spec
open Cert.ReferenceIdeal.RefValue Idealize.ShloMosaic.StableHlo

variable (m : (ℓ : Loc nD τ sig) → Buf (Elt Ideal) ℓ) (c : Dev nD)

/-! ## The arrays the region finds, from the arguments -/

theorem V_v0 : V m c main_v0
    = ((truncf (F := Ideal) .bf16 · bitsLt_bf16_f32) : (⟨S4096x4096, .f32⟩ : BufTy).Contents (Elt Ideal) → (⟨S4096x4096, .bf16⟩ : BufTy).Contents (Elt Ideal))
        (m ((c : Thread nD τ).loc main_arg3)) := by
  show StableHlo.after hostOps0 (fun b => m (c, b)) (Proc.devRef .tc main_v0) = _
  after_results

theorem V_v1 : V m c main_v1
    = ((extui 32 · natLt_1_32) : (⟨S2048x4096, .i1⟩ : BufTy).Contents (Elt Ideal) → (⟨S2048x4096, .i32⟩ : BufTy).Contents (Elt Ideal))
        (m ((c : Thread nD τ).loc main_arg2)) := by
  show StableHlo.after hostOps0 (fun b => m (c, b)) (Proc.devRef .tc main_v1) = _
  after_results

/-- A widened mask bit, tested against zero and read as a number, is the bit read as a number. -/
theorem mask_word : ∀ w : BitVec 1, ((IntOp.cmpi .ne (w.setWidth 32) 0#32).setWidth 32).toInt = (w.toNat : ℤ) := by decide

theorem mfOf_widened (w : BitVec 1) : mfOf (w.setWidth 32) = (((w.toNat : ℕ) : ℝ) : EReal) := by
  show ((((IntOp.cmpi .ne (w.setWidth 32) 0#32).setWidth 32).toInt : ℝ) : EReal) = _
  rw [mask_word w]
  norm_cast

theorem sqG_eq : sqG m c = sqA (m ((c : Thread nD τ).loc main_arg0)) (m ((c : Thread nD τ).loc main_arg1)) := by
  funext b n
  unfold sqG sqA
  rw [V_main_arg0, V_main_arg1]
  rfl

theorem SG_eq : SG m c = SA (m ((c : Thread nD τ).loc main_arg3)) := by
  funext n j
  unfold SG SA
  rw [V_v0]
  rfl

theorem mfG_eq : mfG m c = mfA (m ((c : Thread nD τ).loc main_arg2)) := by
  funext b n
  unfold mfG mfA
  rw [V_v1]
  exact mfOf_widened _

/-! ## The host's sum of the four partials -/

/-- The four row tiles index a [4, 1, 1] array. -/
def tileEquiv : Fin 4 ≃ S4x1x1.Idx where
  toFun a := ix3 a (0 : Fin 1) (0 : Fin 1)
  invFun j := j 0
  left_inv a := rfl
  right_inv j := by
    have h1 : (j 1).val < 1 := (j 1).isLt
    have h2 : (j 2).val < 1 := (j 2).isLt
    funext d
    match d with
    | ⟨0, _⟩ => rfl
    | ⟨1, _⟩ => exact Fin.ext (by show 0 = (j 1).val; omega)
    | ⟨2, _⟩ => exact Fin.ext (by show 0 = (j 2).val; omega)

theorem hostSum4 (x : (⟨S4x1x1, .f32⟩ : BufTy).Contents (Elt Ideal)) (i : S_.Idx) :
    Host.reduceAdd (F := Ideal) x (constant (F := Ideal) S_ .f32 0x00000000#32) reducesTo_S4x1x1_S_d0_1_2 h_S_ i
      = 0 + ∑ a : Fin 4, x (ix3 a (0 : Fin 1) (0 : Fin 1)) := by
  simp only [Host.reduceAdd, Ideal.hostReduceAdd_def]
  refine (Ideal.hostReduceAdd_total reducesTo_S4x1x1_S_d0_1_2 (fun b => b.elim0) x _ i).trans ?_
  exact congrArg₂ (· + ·) Ideal.ofBits_zero_f32 (Equiv.sum_comp tileEquiv x).symm

/-! ## The two results agree -/

theorem loss_eq :
    loss (partNum m c) (partDen m c)
      = Cert.ReferenceIdeal.Read.val_main_v10 (F := Ideal) (m ((c : Thread nD τ).loc main_arg0)) (m ((c : Thread nD τ).loc main_arg1))
          (m ((c : Thread nD τ).loc main_arg2)) (m ((c : Thread nD τ).loc main_arg3)) := by
  have hn : Host.reduceAdd (F := Ideal) (partNum m c) (constant (F := Ideal) S_ .f32 0x00000000#32) reducesTo_S4x1x1_S_d0_1_2 h_S_
      = Cert.ReferenceIdeal.Read.val_main_v7 (F := Ideal) (m ((c : Thread nD τ).loc main_arg0)) (m ((c : Thread nD τ).loc main_arg1))
          (m ((c : Thread nD τ).loc main_arg2)) (m ((c : Thread nD τ).loc main_arg3)) := by
    funext i
    rw [hostSum4, Cert.ReferenceIdeal.RefValue.num_apply]
    refine congrArg (0 + ·) ?_
    show ∑ a : Fin 4, numTile (sqG m c) (mfG m c) (SG m c) a = _
    rw [sqG_eq, mfG_eq, SG_eq]
    exact num_eq _ _ _ (mfA_01 _)
  have hd : Host.reduceAdd (F := Ideal) (partDen m c) (constant (F := Ideal) S_ .f32 0x00000000#32) reducesTo_S4x1x1_S_d0_1_2 h_S_
      = Cert.ReferenceIdeal.Read.val_main_v5 (F := Ideal) (m ((c : Thread nD τ).loc main_arg2)) := by
    funext i
    rw [hostSum4, Cert.ReferenceIdeal.RefValue.den_apply]
    refine congrArg (0 + ·) ?_
    show ∑ a : Fin 4, denTile (mfG m c) a = _
    rw [mfG_eq]
    exact den_eq _
  unfold loss
  rw [hn, hd]
  rfl

end Cert.Bridge

end
-- ==== Proof.lean ====
/-
  A masked root-mean-square loss with a neighbour term, computed tile by tile, against its plain formula.

  With `sq = (y - yhat)²`, a neighbour matrix `S` and a 0/1 mask `m`, both programs return
  `sqrt (Σ (sq + sq · Sᵀ) * m / Σ m + ε)`, the same constant `ε` on both sides. The reference forms the whole
  [2048, 4096] arrays and sums them once. The kernel walks a 4 x 8 grid of (row tile, column step): per row tile it
  accumulates, over the eight column steps, the neighbour term of every column, the masked squared error of every row and
  the mask count of every row; after the last step it adds the masked neighbour terms to the masked squared errors and
  sums the tile's rows, leaving one partial numerator and one partial denominator per row tile, which the host adds up.

  Over the extended reals the two agree for every input: sums may be regrouped freely, a change of float format is the
  identity, and `(sq + t) * m = sq * m + m * t` holds for `m = 0` and `m = 1` whatever `sq` and `t` are, so the
  finiteness of the inputs is never used. The idealization rewrote no operation, so its statement is `True`. The two
  kernel frames are the generated ones; the reference's frame is its generated run with the result dropped.
-/
import proofs.«156724_j85701777424698_2_alg».proof.Defs
import proofs.«156724_j85701777424698_2_alg».proof.Proof.Gen.Kernel
import proofs.«156724_j85701777424698_2_alg».proof.Proof.Gen.Kernel.Skeleton
import proofs.«156724_j85701777424698_2_alg».proof.Proof.Gen.Kernel.Launch
import proofs.«156724_j85701777424698_2_alg».proof.Proof.Gen.Kernel.Points
import proofs.«156724_j85701777424698_2_alg».proof.Proof.Gen.Kernel.Frame
import proofs.«156724_j85701777424698_2_alg».proof.Proof.Gen.KernelIdeal
import proofs.«156724_j85701777424698_2_alg».proof.Proof.Gen.KernelIdeal.Skeleton
import proofs.«156724_j85701777424698_2_alg».proof.Proof.Gen.KernelIdeal.Launch
import proofs.«156724_j85701777424698_2_alg».proof.Proof.Gen.KernelIdeal.Points
import proofs.«156724_j85701777424698_2_alg».proof.Proof.Gen.KernelIdeal.Frame
import proofs.«156724_j85701777424698_2_alg».proof.Proof.Gen.ReferenceIdeal
import proofs.«156724_j85701777424698_2_alg».proof.Proof.Gen.ReferenceIdeal.Run
import proofs.«156724_j85701777424698_2_alg».proof.Proof.Gen.ReferenceIdeal.Read
import proofs.«156724_j85701777424698_2_alg».proof.Proof.Gen.Pre_finite_inputs
import proofs.«156724_j85701777424698_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's run ends at the loss of its partial sums and the
    reference's at its own term of the same arguments: one value. -/
theorem algebraic : Cert.algebraic_KernelIdeal_ReferenceIdeal := by
  intro m ρ m' ρ' _ hagree
  refine ⟨fun c => Cert.KernelIdeal.Result.loss (Cert.KernelIdeal.Result.partNum m c) (Cert.KernelIdeal.Result.partDen m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v10_eq]
  exact (Cert.Bridge.loss_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
